-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S163968x128 : Shape := ⟨2, ![163968, 128]⟩
abbrev S128x64 : Shape := ⟨2, ![128, 64]⟩
abbrev S64 : Shape := ⟨1, ![64]⟩
abbrev S2x3932160 : Shape := ⟨2, ![2, 3932160]⟩
abbrev S163968 : Shape := ⟨1, ![163968]⟩
abbrev S_ : Shape := ⟨0, ![]⟩

class Facts : Prop where
  bcast_S_S163968x128 : S_.BroadcastsInDim S163968x128 (![] : Fin 0 → Fin S163968x128.rank)
  reducesTo_S163968x128_S_d0_1 : S163968x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S163968x128 .f32) (main_arg1 : FVec F S128x64 .f32) (main_arg2 : FVec F S64 .f32) (main_arg3 : IVec S2x3932160 32) (main_arg4 : IVec S163968 32) : IVec S_ 1 :=
  let main_v0 : FVec F S163968x128 .f32 := Host.absf main_arg0
  let main_cst : FVec F S_ .f32 := constant S_ .f32 0x7F800000#32
  let main_v1 : FVec F S163968x128 .f32 := broadcastInDim S163968x128 ![] bcast_S_S163968x128 main_cst
  let main_v2 : IVec S163968x128 1 := cmpf .olt main_v0 main_v1
  let main_c : IVec S_ 1 := constantI S_ 1 1#1
  let main_v3 : IVec S_ 1 := (fun x v => Host.reduce IntOp.andi x v reducesTo_S163968x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S163968x128 : Shape := ⟨2, ![163968, 128]⟩
abbrev S128x64 : Shape := ⟨2, ![128, 64]⟩
abbrev S64 : Shape := ⟨1, ![64]⟩
abbrev S2x3932160 : Shape := ⟨2, ![2, 3932160]⟩
abbrev S163968 : Shape := ⟨1, ![163968]⟩
abbrev S163968x64 : Shape := ⟨2, ![163968, 64]⟩
abbrev S7808x128 : Shape := ⟨2, ![7808, 128]⟩
abbrev S7808x64 : Shape := ⟨2, ![7808, 64]⟩
abbrev S_ : Shape := ⟨0, ![]⟩
abbrev S655488x64 : Shape := ⟨2, ![655488, 64]⟩
abbrev S163968x1 : Shape := ⟨2, ![163968, 1]⟩
abbrev S1x3932160 : Shape := ⟨2, ![1, 3932160]⟩
abbrev S3932160 : Shape := ⟨1, ![3932160]⟩
abbrev S655488 : Shape := ⟨1, ![655488]⟩
abbrev S3932160x1 : Shape := ⟨2, ![3932160, 1]⟩
abbrev S3932160x64 : Shape := ⟨2, ![3932160, 64]⟩
abbrev S655488x1 : Shape := ⟨2, ![655488, 1]⟩
abbrev S1x64 : Shape := ⟨2, ![1, 64]⟩
abbrev S4552x64 : Shape := ⟨2, ![4552, 64]⟩
abbrev S4552x1 : Shape := ⟨2, ![4552, 1]⟩

abbrev nBuf : Space → Nat
  | .hbm => 70
  | .vmem => 14
  | .smem => 0
  | _ => 0

abbrev bufTy : (tb : Table) → Fin (tcTables nBuf tb) → BufTy
  | .hbm, ⟨0, _⟩ => ⟨S163968x128, .f32⟩
  | .hbm, ⟨1, _⟩ => ⟨S128x64, .f32⟩
  | .hbm, ⟨2, _⟩ => ⟨S64, .f32⟩
  | .hbm, ⟨3, _⟩ => ⟨S2x3932160, .i32⟩
  | .hbm, ⟨4, _⟩ => ⟨S163968, .i32⟩
  | .hbm, ⟨5, _⟩ => ⟨S163968x64, .f32⟩
  | .hbm, ⟨6, _⟩ => ⟨S_, .f32⟩
  | .hbm, ⟨7, _⟩ => ⟨S655488x64, .f32⟩
  | .hbm, ⟨8, _⟩ => ⟨S_, .i32⟩
  | .hbm, ⟨9, _⟩ => ⟨S163968, .i32⟩
  | .hbm, ⟨10, _⟩ => ⟨S163968, .i1⟩
  | .hbm, ⟨11, _⟩ => ⟨S_, .i32⟩
  | .hbm, ⟨12, _⟩ => ⟨S163968, .i32⟩
  | .hbm, ⟨13, _⟩ => ⟨S163968, .i32⟩
  | .hbm, ⟨14, _⟩ => ⟨S163968, .i32⟩
  | .hbm, ⟨15, _⟩ => ⟨S163968x1, .i32⟩
  | .hbm, ⟨16, _⟩ => ⟨S655488x64, .f32⟩
  | .hbm, ⟨17, _⟩ => ⟨S1x3932160, .i32⟩
  | .hbm, ⟨18, _⟩ => ⟨S3932160, .i32⟩
  | .hbm, ⟨19, _⟩ => ⟨S1x3932160, .i32⟩
  | .hbm, ⟨20, _⟩ => ⟨S3932160, .i32⟩
  | .hbm, ⟨21, _⟩ => ⟨S_, .f32⟩
  | .hbm, ⟨22, _⟩ => ⟨S3932160, .f32⟩
  | .hbm, ⟨23, _⟩ => ⟨S_, .f32⟩
  | .hbm, ⟨24, _⟩ => ⟨S655488, .f32⟩
  | .hbm, ⟨25, _⟩ => ⟨S3932160x1, .i32⟩
  | .hbm, ⟨26, _⟩ => ⟨S655488, .f32⟩
  | .hbm, ⟨27, _⟩ => ⟨S_, .f32⟩
  | .hbm, ⟨28, _⟩ => ⟨S655488, .f32⟩
  | .hbm, ⟨29, _⟩ => ⟨S655488, .f32⟩
  | .hbm, ⟨30, _⟩ => ⟨S655488, .f32⟩
  | .hbm, ⟨31, _⟩ => ⟨S_, .i32⟩
  | .hbm, ⟨32, _⟩ => ⟨S3932160, .i32⟩
  | .hbm, ⟨33, _⟩ => ⟨S3932160, .i1⟩
  | .hbm, ⟨34, _⟩ => ⟨S_, .i32⟩
  | .hbm, ⟨35, _⟩ => ⟨S3932160, .i32⟩
  | .hbm, ⟨36, _⟩ => ⟨S3932160, .i32⟩
  | .hbm, ⟨37, _⟩ => ⟨S3932160, .i32⟩
  | .hbm, ⟨38, _⟩ => ⟨S3932160x1, .i32⟩
  | .hbm, ⟨39, _⟩ => ⟨S3932160, .f32⟩
  | .hbm, ⟨40, _⟩ => ⟨S_, .i32⟩
  | .hbm, ⟨41, _⟩ => ⟨S3932160, .i32⟩
  | .hbm, ⟨42, _⟩ => ⟨S3932160, .i1⟩
  | .hbm, ⟨43, _⟩ => ⟨S_, .i32⟩
  | .hbm, ⟨44, _⟩ => ⟨S3932160, .i32⟩
  | .hbm, ⟨45, _⟩ => ⟨S3932160, .i32⟩
  | .hbm, ⟨46, _⟩ => ⟨S3932160, .i32⟩
  | .hbm, ⟨47, _⟩ => ⟨S3932160x1, .i32⟩
  | .hbm, ⟨48, _⟩ => ⟨S3932160, .f32⟩
  | .hbm, ⟨49, _⟩ => ⟨S3932160, .f32⟩
  | .hbm, ⟨50, _⟩ => ⟨S3932160x1, .f32⟩
  | .hbm, ⟨51, _⟩ => ⟨S_, .i32⟩
  | .hbm, ⟨52, _⟩ => ⟨S3932160, .i32⟩
  | .hbm, ⟨53, _⟩ => ⟨S3932160, .i1⟩
  | .hbm, ⟨54, _⟩ => ⟨S_, .i32⟩
  | .hbm, ⟨55, _⟩ => ⟨S3932160, .i32⟩
  | .hbm, ⟨56, _⟩ => ⟨S3932160, .i32⟩
  | .hbm, ⟨57, _⟩ => ⟨S3932160, .i32⟩
  | .hbm, ⟨58, _⟩ => ⟨S3932160x1, .i32⟩
  | .hbm, ⟨59, _⟩ => ⟨S3932160x64, .f32⟩
  | .hbm, ⟨60, _⟩ => ⟨S3932160x64, .f32⟩
  | .hbm, ⟨61, _⟩ => ⟨S3932160x64, .f32⟩
  | .hbm, ⟨62, _⟩ => ⟨S_, .f32⟩
  | .hbm, ⟨63, _⟩ => ⟨S655488x64, .f32⟩
  | .hbm, ⟨64, _⟩ => ⟨S3932160x1, .i32⟩
  | .hbm, ⟨65, _⟩ => ⟨S655488x64, .f32⟩
  | .hbm, ⟨66, _⟩ => ⟨S655488, .f32⟩
  | .hbm, ⟨67, _⟩ => ⟨S655488x1, .f32⟩
  | .hbm, ⟨68, _⟩ => ⟨S1x64, .f32⟩
  | .hbm, ⟨69, _⟩ => ⟨S655488x64, .f32⟩
  | .local _ .vmem, ⟨0, _⟩ => ⟨S7808x128, .f32⟩
  | .local _ .vmem, ⟨1, _⟩ => ⟨S7808x128, .f32⟩
  | .local _ .vmem, ⟨2, _⟩ => ⟨S128x64, .f32⟩
  | .local _ .vmem, ⟨3, _⟩ => ⟨S7808x64, .f32⟩
  | .local _ .vmem, ⟨4, _⟩ => ⟨S7808x64, .f32⟩
  | .local _ .vmem, ⟨5, _⟩ => ⟨S4552x64, .f32⟩
  | .local _ .vmem, ⟨6, _⟩ => ⟨S4552x64, .f32⟩
  | .local _ .vmem, ⟨7, _⟩ => ⟨S4552x64, .f32⟩
  | .local _ .vmem, ⟨8, _⟩ => ⟨S4552x64, .f32⟩
  | .local _ .vmem, ⟨9, _⟩ => ⟨S4552x1, .f32⟩
  | .local _ .vmem, ⟨10, _⟩ => ⟨S4552x1, .f32⟩
  | .local _ .vmem, ⟨11, _⟩ => ⟨S1x64, .f32⟩
  | .local _ .vmem, ⟨12, _⟩ => ⟨S4552x64, .f32⟩
  | .local _ .vmem, ⟨13, _⟩ => ⟨S4552x64, .f32⟩
  | _, _ => ⟨S163968x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7808x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7808x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![144], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4552x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4552x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4552x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4552x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S7808x128_S7808x128_0_0 : ∀ a, (![0, 0] : Fin 2 → Nat) a + S7808x128.size a ≤ S7808x128.size a
  h_S7808x128 : 0 < S7808x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S7808x64_S7808x64_0_0 : ∀ a, (![0, 0] : Fin 2 → Nat) a + S7808x64.size a ≤ S7808x64.size a
  h_S7808x64 : 0 < S7808x64.numel
  bcast_S_S655488x64 : S_.BroadcastsInDim S655488x64 (![] : Fin 0 → Fin S655488x64.rank)
  bcast_S_S163968 : S_.BroadcastsInDim S163968 (![] : Fin 0 → Fin S163968.rank)
  bcast_S163968_S163968x1_0 : S163968.BroadcastsInDim S163968x1 (![0] : Fin 1 → Fin S163968x1.rank)
  slices_S2x3932160_S1x3932160_0_0 : S2x3932160.Slices ![0, 0] S1x3932160
  shapeCasts_S1x3932160_S3932160 : S1x3932160.ShapeCasts S3932160
  slices_S2x3932160_S1x3932160_1_0 : S2x3932160.Slices ![1, 0] S1x3932160
  bcast_S_S3932160 : S_.BroadcastsInDim S3932160 (![] : Fin 0 → Fin S3932160.rank)
  bcast_S_S655488 : S_.BroadcastsInDim S655488 (![] : Fin 0 → Fin S655488.rank)
  bcast_S3932160_S3932160x1_0 : S3932160.BroadcastsInDim S3932160x1 (![0] : Fin 1 → Fin S3932160x1.rank)
  bcast_S3932160x1_S3932160x64_0_1 : S3932160x1.BroadcastsInDim S3932160x64 (![0, 1] : Fin 2 → Fin S3932160x64.rank)
  bcast_S655488_S655488x1_0 : S655488.BroadcastsInDim S655488x1 (![0] : Fin 1 → Fin S655488x1.rank)
  shapeCasts_S64_S1x64 : S64.ShapeCasts S1x64
  inb_S4552x64_S4552x64_0_0 : ∀ a, (![0, 0] : Fin 2 → Nat) a + S4552x64.size a ≤ S4552x64.size a
  h_S4552x64 : 0 < S4552x64.numel
  shapeCasts_S4552x64_S4552x64 : S4552x64.ShapeCasts S4552x64
  inb_S4552x1_S4552x1_0_0 : ∀ a, (![0, 0] : Fin 2 → Nat) a + S4552x1.size a ≤ S4552x1.size a
  h_S4552x1 : 0 < S4552x1.numel
  shapeCasts_S4552x1_S4552x1 : S4552x1.ShapeCasts S4552x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4552x64 : S1x64.Broadcasts S4552x64
  broadcasts_S4552x1_S4552x64 : S4552x1.Broadcasts S4552x64
  dot_S7808x128_S128x64_S7808x64_1_0_0_1_n_n_wf : DotDims.WF S7808x128 S128x64 S7808x64 [1] [0] [0] [1] [] []
  scatter_S655488x64_S163968x1_S163968x64_1_0_0_1_wf : ScatterDims.WF S655488x64 S163968x1 S163968x64 [1] [0] [0] 1
  scatter_S655488_S3932160x1_S3932160_n_0_0_1_wf : ScatterDims.WF S655488 S3932160x1 S3932160 [] [0] [0] 1
  gather_S655488_S3932160x1_S3932160_n_0_n_n_0_1_1_wf : GatherDims.WF S655488 S3932160x1 S3932160 [] [0] [] [0] [] 1 ![1]
  gather_S655488x64_S3932160x1_S3932160x64_1_0_n_n_0_1_164_wf : GatherDims.WF S655488x64 S3932160x1 S3932160x64 [1] [0] [] [0] [] 1 ![1, 64]
  scatter_S655488x64_S3932160x1_S3932160x64_1_0_0_1_wf : ScatterDims.WF S655488x64 S3932160x1 S3932160x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7808x128.size a ≤ S163968x128.size a
  hwx0_0 : ∀ i : grid0.Coords, EltTy.bits .f32 = 32 ∨ (Rect.block (s := S163968x128) S7808x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7808x64.size a ≤ S163968x64.size a
  hwx0_2 : ∀ i : grid0.Coords, EltTy.bits .f32 = 32 ∨ (Rect.block (s := S163968x64) S7808x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4552x64.size a ≤ S655488x64.size a
  hwx1_0 : ∀ i : grid1.Coords, EltTy.bits .f32 = 32 ∨ (Rect.block (s := S655488x64) S4552x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4552x64.size a ≤ S655488x64.size a
  hwx1_1 : ∀ i : grid1.Coords, EltTy.bits .f32 = 32 ∨ (Rect.block (s := S655488x64) S4552x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4552x1.size a ≤ S655488x1.size a
  hwx1_2 : ∀ i : grid1.Coords, EltTy.bits .f32 = 32 ∨ (Rect.block (s := S655488x1) S4552x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4552x64.size a ≤ S655488x64.size a
  hwx1_4 : ∀ i : grid1.Coords, EltTy.bits .f32 = 32 ∨ (Rect.block (s := S655488x64) S4552x64.size (cc1_transform_4 i) (hinb1_4 i)).WholeWords (EltTy.packing .f32)

variable [Facts₀]

def dot_S7808x128_S128x64_S7808x64_1_0_0_1_n_n : DotDims S7808x128 S128x64 S7808x64 where
  lhsContracting := [1]
  rhsContracting := [0]
  lhsNonContracting := [0]
  rhsNonContracting := [1]
  lhsBatch := []
  rhsBatch := []
  wf := dot_S7808x128_S128x64_S7808x64_1_0_0_1_n_n_wf
def scatter_S655488x64_S163968x1_S163968x64_1_0_0_1 : ScatterDims S655488x64 S163968x1 S163968x64 where
  updateWindowDims := [1]
  insertedWindowDims := [0]
  scatterDimsToOperandDims := [0]
  indexVectorDim := 1
  wf := scatter_S655488x64_S163968x1_S163968x64_1_0_0_1_wf
def scatter_S655488_S3932160x1_S3932160_n_0_0_1 : ScatterDims S655488 S3932160x1 S3932160 where
  updateWindowDims := []
  insertedWindowDims := [0]
  scatterDimsToOperandDims := [0]
  indexVectorDim := 1
  wf := scatter_S655488_S3932160x1_S3932160_n_0_0_1_wf
def gather_S655488_S3932160x1_S3932160_n_0_n_n_0_1_1 : GatherDims S655488 S3932160x1 S3932160 where
  offsetDims := []
  collapsedSliceDims := [0]
  operandBatchingDims := []
  startIndicesBatchingDims := []
  startIndexMap := [0]
  indexVectorDim := 1
  sliceSizes := ![1]
  wf := gather_S655488_S3932160x1_S3932160_n_0_n_n_0_1_1_wf
def gather_S655488x64_S3932160x1_S3932160x64_1_0_n_n_0_1_164 : GatherDims S655488x64 S3932160x1 S3932160x64 where
  offsetDims := [1]
  collapsedSliceDims := [0]
  operandBatchingDims := []
  startIndicesBatchingDims := []
  startIndexMap := [0]
  indexVectorDim := 1
  sliceSizes := ![1, 64]
  wf := gather_S655488x64_S3932160x1_S3932160x64_1_0_n_n_0_1_164_wf
def scatter_S655488x64_S3932160x1_S3932160x64_1_0_0_1 : ScatterDims S655488x64 S3932160x1 S3932160x64 where
  updateWindowDims := [1]
  insertedWindowDims := [0]
  scatterDimsToOperandDims := [0]
  indexVectorDim := 1
  wf := scatter_S655488x64_S3932160x1_S3932160x64_1_0_0_1_wf

abbrev win0_0 : Pipeline.Window sig grid0 :=
  Pipeline.Window.ofSpec (Memref.whole main_arg0) S7808x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S7808x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4552x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4552x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4552x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S4552x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S163968x128 : Shape := ⟨2, ![163968, 128]⟩
abbrev S128x64 : Shape := ⟨2, ![128, 64]⟩
abbrev S64 : Shape := ⟨1, ![64]⟩
abbrev S2x3932160 : Shape := ⟨2, ![2, 3932160]⟩
abbrev S163968 : Shape := ⟨1, ![163968]⟩
abbrev S_ : Shape := ⟨0, ![]⟩
abbrev S655488x128 : Shape := ⟨2, ![655488, 128]⟩
abbrev S163968x1 : Shape := ⟨2, ![163968, 1]⟩
abbrev S655488x64 : Shape := ⟨2, ![655488, 64]⟩
abbrev S1x3932160 : Shape := ⟨2, ![1, 3932160]⟩
abbrev S3932160 : Shape := ⟨1, ![3932160]⟩
abbrev S655488 : Shape := ⟨1, ![655488]⟩
abbrev S3932160x1 : Shape := ⟨2, ![3932160, 1]⟩
abbrev S3932160x64 : Shape := ⟨2, ![3932160, 64]⟩
abbrev S655488x1 : Shape := ⟨2, ![655488, 1]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S163968x128, .f32⟩
  | .hbm, ⟨1, _⟩ => ⟨S128x64, .f32⟩
  | .hbm, ⟨2, _⟩ => ⟨S64, .f32⟩
  | .hbm, ⟨3, _⟩ => ⟨S2x3932160, .i32⟩
  | .hbm, ⟨4, _⟩ => ⟨S163968, .i32⟩
  | .hbm, ⟨5, _⟩ => ⟨S_, .f32⟩
  | .hbm, ⟨6, _⟩ => ⟨S655488x128, .f32⟩
  | .hbm, ⟨7, _⟩ => ⟨S_, .i32⟩
  | .hbm, ⟨8, _⟩ => ⟨S163968, .i32⟩
  | .hbm, ⟨9, _⟩ => ⟨S163968, .i1⟩
  | .hbm, ⟨10, _⟩ => ⟨S_, .i32⟩
  | .hbm, ⟨11, _⟩ => ⟨S163968, .i32⟩
  | .hbm, ⟨12, _⟩ => ⟨S163968, .i32⟩
  | .hbm, ⟨13, _⟩ => ⟨S163968, .i32⟩
  | .hbm, ⟨14, _⟩ => ⟨S163968x1, .i32⟩
  | .hbm, ⟨15, _⟩ => ⟨S655488x128, .f32⟩
  | .hbm, ⟨16, _⟩ => ⟨S655488x64, .f32⟩
  | .hbm, ⟨17, _⟩ => ⟨S1x3932160, .i32⟩
  | .hbm, ⟨18, _⟩ => ⟨S3932160, .i32⟩
  | .hbm, ⟨19, _⟩ => ⟨S1x3932160, .i32⟩
  | .hbm, ⟨20, _⟩ => ⟨S3932160, .i32⟩
  | .hbm, ⟨21, _⟩ => ⟨S_, .f32⟩
  | .hbm, ⟨22, _⟩ => ⟨S3932160, .f32⟩
  | .hbm, ⟨23, _⟩ => ⟨S_, .f32⟩
  | .hbm, ⟨24, _⟩ => ⟨S655488, .f32⟩
  | .hbm, ⟨25, _⟩ => ⟨S3932160x1, .i32⟩
  | .hbm, ⟨26, _⟩ => ⟨S655488, .f32⟩
  | .hbm, ⟨27, _⟩ => ⟨S_, .f32⟩
  | .hbm, ⟨28, _⟩ => ⟨S655488, .f32⟩
  | .hbm, ⟨29, _⟩ => ⟨S655488, .f32⟩
  | .hbm, ⟨30, _⟩ => ⟨S655488, .f32⟩
  | .hbm, ⟨31, _⟩ => ⟨S_, .i32⟩
  | .hbm, ⟨32, _⟩ => ⟨S3932160, .i32⟩
  | .hbm, ⟨33, _⟩ => ⟨S3932160, .i1⟩
  | .hbm, ⟨34, _⟩ => ⟨S_, .i32⟩
  | .hbm, ⟨35, _⟩ => ⟨S3932160, .i32⟩
  | .hbm, ⟨36, _⟩ => ⟨S3932160, .i32⟩
  | .hbm, ⟨37, _⟩ => ⟨S3932160, .i32⟩
  | .hbm, ⟨38, _⟩ => ⟨S3932160x1, .i32⟩
  | .hbm, ⟨39, _⟩ => ⟨S3932160, .f32⟩
  | .hbm, ⟨40, _⟩ => ⟨S_, .i32⟩
  | .hbm, ⟨41, _⟩ => ⟨S3932160, .i32⟩
  | .hbm, ⟨42, _⟩ => ⟨S3932160, .i1⟩
  | .hbm, ⟨43, _⟩ => ⟨S_, .i32⟩
  | .hbm, ⟨44, _⟩ => ⟨S3932160, .i32⟩
  | .hbm, ⟨45, _⟩ => ⟨S3932160, .i32⟩
  | .hbm, ⟨46, _⟩ => ⟨S3932160, .i32⟩
  | .hbm, ⟨47, _⟩ => ⟨S3932160x1, .i32⟩
  | .hbm, ⟨48, _⟩ => ⟨S3932160, .f32⟩
  | .hbm, ⟨49, _⟩ => ⟨S3932160, .f32⟩
  | .hbm, ⟨50, _⟩ => ⟨S3932160x1, .f32⟩
  | .hbm, ⟨51, _⟩ => ⟨S_, .i32⟩
  | .hbm, ⟨52, _⟩ => ⟨S3932160, .i32⟩
  | .hbm, ⟨53, _⟩ => ⟨S3932160, .i1⟩
  | .hbm, ⟨54, _⟩ => ⟨S_, .i32⟩
  | .hbm, ⟨55, _⟩ => ⟨S3932160, .i32⟩
  | .hbm, ⟨56, _⟩ => ⟨S3932160, .i32⟩
  | .hbm, ⟨57, _⟩ => ⟨S3932160, .i32⟩
  | .hbm, ⟨58, _⟩ => ⟨S3932160x1, .i32⟩
  | .hbm, ⟨59, _⟩ => ⟨S3932160x64, .f32⟩
  | .hbm, ⟨60, _⟩ => ⟨S3932160x64, .f32⟩
  | .hbm, ⟨61, _⟩ => ⟨S3932160x64, .f32⟩
  | .hbm, ⟨62, _⟩ => ⟨S_, .f32⟩
  | .hbm, ⟨63, _⟩ => ⟨S655488x64, .f32⟩
  | .hbm, ⟨64, _⟩ => ⟨S3932160x1, .i32⟩
  | .hbm, ⟨65, _⟩ => ⟨S655488x64, .f32⟩
  | .hbm, ⟨66, _⟩ => ⟨S655488, .f32⟩
  | .hbm, ⟨67, _⟩ => ⟨S655488x1, .f32⟩
  | .hbm, ⟨68, _⟩ => ⟨S655488x64, .f32⟩
  | .hbm, ⟨69, _⟩ => ⟨S655488x64, .f32⟩
  | .hbm, ⟨70, _⟩ => ⟨S655488x64, .f32⟩
  | .hbm, ⟨71, _⟩ => ⟨S1x64, .f32⟩
  | .hbm, ⟨72, _⟩ => ⟨S655488x64, .f32⟩
  | .hbm, ⟨73, _⟩ => ⟨S655488x64, .f32⟩
  | .hbm, ⟨74, _⟩ => ⟨S_, .f32⟩
  | .hbm, ⟨75, _⟩ => ⟨S655488x64, .f32⟩
  | .hbm, ⟨76, _⟩ => ⟨S655488x64, .i1⟩
  | .hbm, ⟨77, _⟩ => ⟨S_, .f32⟩
  | .hbm, ⟨78, _⟩ => ⟨S655488x64, .f32⟩
  | .hbm, ⟨79, _⟩ => ⟨S655488x64, .i1⟩
  | .hbm, ⟨80, _⟩ => ⟨S_, .f32⟩
  | .hbm, ⟨81, _⟩ => ⟨S_, .f32⟩
  | .hbm, ⟨82, _⟩ => ⟨S655488x64, .f32⟩
  | .hbm, ⟨83, _⟩ => ⟨S655488x64, .f32⟩
  | .hbm, ⟨84, _⟩ => ⟨S655488x64, .f32⟩
  | .hbm, ⟨85, _⟩ => ⟨S_, .f32⟩
  | .hbm, ⟨86, _⟩ => ⟨S655488x64, .f32⟩
  | .hbm, ⟨87, _⟩ => ⟨S655488x64, .f32⟩
  | .hbm, ⟨88, _⟩ => ⟨S655488x64, .f32⟩
  | _, _ => ⟨S163968x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_cst_1 : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_v4 : Ref sig .tc := ⟨.hbm, 83, rfl⟩
abbrev main_call0_v5 : Ref sig .tc := ⟨.hbm, 84, rfl⟩
abbrev main_call0_cst_2 : Ref sig .tc := ⟨.hbm, 85, rfl⟩
abbrev main_call0_v6 : Ref sig .tc := ⟨.hbm, 86, rfl⟩
abbrev main_call0_v7 : Ref sig .tc := ⟨.hbm, 87, rfl⟩
abbrev main_v56 : Ref sig .tc := ⟨.hbm, 88, rfl⟩

abbrev nD : Nat := 1
abbrev τ : Topo := Topo.v7x

variable {F : FTy → Type} [FloatOps F]

class Facts₀ : Prop where
  bcast_S_S655488x128 : S_.BroadcastsInDim S655488x128 (![] : Fin 0 → Fin S655488x128.rank)
  bcast_S_S163968 : S_.BroadcastsInDim S163968 (![] : Fin 0 → Fin S163968.rank)
  bcast_S163968_S163968x1_0 : S163968.BroadcastsInDim S163968x1 (![0] : Fin 1 → Fin S163968x1.rank)
  slices_S2x3932160_S1x3932160_0_0 : S2x3932160.Slices ![0, 0] S1x3932160
  shapeCasts_S1x3932160_S3932160 : S1x3932160.ShapeCasts S3932160
  slices_S2x3932160_S1x3932160_1_0 : S2x3932160.Slices ![1, 0] S1x3932160
  bcast_S_S3932160 : S_.BroadcastsInDim S3932160 (![] : Fin 0 → Fin S3932160.rank)
  bcast_S_S655488 : S_.BroadcastsInDim S655488 (![] : Fin 0 → Fin S655488.rank)
  bcast_S3932160_S3932160x1_0 : S3932160.BroadcastsInDim S3932160x1 (![0] : Fin 1 → Fin S3932160x1.rank)
  bcast_S3932160x1_S3932160x64_0_1 : S3932160x1.BroadcastsInDim S3932160x64 (![0, 1] : Fin 2 → Fin S3932160x64.rank)
  bcast_S_S655488x64 : S_.BroadcastsInDim S655488x64 (![] : Fin 0 → Fin S655488x64.rank)
  bcast_S655488_S655488x1_0 : S655488.BroadcastsInDim S655488x1 (![0] : Fin 1 → Fin S655488x1.rank)
  bcast_S655488x1_S655488x64_0_1 : S655488x1.BroadcastsInDim S655488x64 (![0, 1] : Fin 2 → Fin S655488x64.rank)
  bcast_S64_S1x64_1 : S64.BroadcastsInDim S1x64 (![1] : Fin 1 → Fin S1x64.rank)
  bcast_S1x64_S655488x64_0_1 : S1x64.BroadcastsInDim S655488x64 (![0, 1] : Fin 2 → Fin S655488x64.rank)
  scatter_S655488x128_S163968x1_S163968x128_1_0_0_1_wf : ScatterDims.WF S655488x128 S163968x1 S163968x128 [1] [0] [0] 1
  dot_S655488x128_S128x64_S655488x64_1_0_0_1_n_n_wf : DotDims.WF S655488x128 S128x64 S655488x64 [1] [0] [0] [1] [] []
  scatter_S655488_S3932160x1_S3932160_n_0_0_1_wf : ScatterDims.WF S655488 S3932160x1 S3932160 [] [0] [0] 1
  gather_S655488_S3932160x1_S3932160_n_0_n_n_0_1_1_wf : GatherDims.WF S655488 S3932160x1 S3932160 [] [0] [] [0] [] 1 ![1]
  gather_S655488x64_S3932160x1_S3932160x64_1_0_n_n_0_1_164_wf : GatherDims.WF S655488x64 S3932160x1 S3932160x64 [1] [0] [] [0] [] 1 ![1, 64]
  scatter_S655488x64_S3932160x1_S3932160x64_1_0_0_1_wf : ScatterDims.WF S655488x64 S3932160x1 S3932160x64 [1] [0] [0] 1

variable [Facts₀]

def scatter_S655488x128_S163968x1_S163968x128_1_0_0_1 : ScatterDims S655488x128 S163968x1 S163968x128 where
  updateWindowDims := [1]
  insertedWindowDims := [0]
  scatterDimsToOperandDims := [0]
  indexVectorDim := 1
  wf := scatter_S655488x128_S163968x1_S163968x128_1_0_0_1_wf
def dot_S655488x128_S128x64_S655488x64_1_0_0_1_n_n : DotDims S655488x128 S128x64 S655488x64 where
  lhsContracting := [1]
  rhsContracting := [0]
  lhsNonContracting := [0]
  rhsNonContracting := [1]
  lhsBatch := []
  rhsBatch := []
  wf := dot_S655488x128_S128x64_S655488x64_1_0_0_1_n_n_wf
def scatter_S655488_S3932160x1_S3932160_n_0_0_1 : ScatterDims S655488 S3932160x1 S3932160 where
  updateWindowDims := []
  insertedWindowDims := [0]
  scatterDimsToOperandDims := [0]
  indexVectorDim := 1
  wf := scatter_S655488_S3932160x1_S3932160_n_0_0_1_wf
def gather_S655488_S3932160x1_S3932160_n_0_n_n_0_1_1 : GatherDims S655488 S3932160x1 S3932160 where
  offsetDims := []
  collapsedSliceDims := [0]
  operandBatchingDims := []
  startIndicesBatchingDims := []
  startIndexMap := [0]
  indexVectorDim := 1
  sliceSizes := ![1]
  wf := gather_S655488_S3932160x1_S3932160_n_0_n_n_0_1_1_wf
def gather_S655488x64_S3932160x1_S3932160x64_1_0_n_n_0_1_164 : GatherDims S655488x64 S3932160x1 S3932160x64 where
  offsetDims := [1]
  collapsedSliceDims := [0]
  operandBatchingDims := []
  startIndicesBatchingDims := []
  startIndexMap := [0]
  indexVectorDim := 1
  sliceSizes := ![1, 64]
  wf := gather_S655488x64_S3932160x1_S3932160x64_1_0_n_n_0_1_164_wf
def scatter_S655488x64_S3932160x1_S3932160x64_1_0_0_1 : ScatterDims S655488x64 S3932160x1 S3932160x64 where
  updateWindowDims := [1]
  insertedWindowDims := [0]
  scatterDimsToOperandDims := [0]
  indexVectorDim := 1
  wf := scatter_S655488x64_S3932160x1_S3932160x64_1_0_0_1_wf

class Facts : Prop extends Facts₀ where

variable [Facts]
-- ==== Proof.RunResult.lean ====
/-
  The idealized kernel's run read at its result array.

  @main is three segments: the first launch, the host operations between the launches, the second launch. The run of
  the segments ends, on every core, with every buffer that outlives a launch at the last boundary's contents; read at
  the result array this names the result, and read at the five arguments it says they are as launched.
-/
import proofs.«126996_j68831145885827_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main's three segments, read at the result array as well as at the arguments: the result ends at the
    last boundary's contents, the arguments as launched. -/
theorem run_result : θ_run defs (onTc (τ := τ) (main (F := F))) ⟨m, fun _ => 0, ρ⟩ (fun r => ∀ c : Dev nD,
      r.2.mem ((c.tc : Thread nD τ).loc main_v51) = W3 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v51 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Run

end Cert.KernelIdeal.KRun

end
-- ==== Proof.Spec.lean ====
/-
  The mathematics both programs are compared against, over plain index arithmetic.

  rowsTimes x W is the matrix product of a 163968 × 128 matrix by a 128 × 64 matrix, read entry by entry:
  entry (r, c) is the sum over k of x(r, k) · W(k, c).

  act is the last stage on one entry v: v itself where v is positive, and exp(min(v, 0)) − 1 elsewhere (on the
  entries that are not positive min(v, 0) is v, so this is exp(v) − 1: the exponential linear unit).

  finish a h n b is the last stage on whole arrays: at (p, c) it is act of a(p, c) + h(p, c) · n(p, 0) + b(0, c) — the
  aggregated neighbours, plus the node's own features scaled by its squared normaliser (a column), plus the bias (a row).
-/
import Idealize.ShloMosaic.PureOps.Ideal
import Idealize.ShloMosaic.Lib.ValueIdx

noncomputable section

namespace Cert.Spec

open Idealize.ShloMosaic Idealize.ShloMosaic.ValueIdx

/-- Entry (r, c) of the product x · W. -/
def rowsTimes (x : FVec Ideal ⟨2, ![163968, 128]⟩ .f32) (W : FVec Ideal ⟨2, ![128, 64]⟩ .f32) :
    FVec Ideal ⟨2, ![163968, 64]⟩ .f32 :=
  fun j => ∑ k : Fin 128, x (ix2 (j 0) k) * W (ix2 k (j 1))

theorem rowsTimes_apply (x : FVec Ideal ⟨2, ![163968, 128]⟩ .f32) (W : FVec Ideal ⟨2, ![128, 64]⟩ .f32)
    (r : Fin 163968) (c : Fin 64) : rowsTimes x W (ix2 r c) = ∑ k : Fin 128, x (ix2 r k) * W (ix2 k c) := rfl

/-- The last stage on one entry: v where v > 0, exp(min(v, 0)) − 1 elsewhere. -/
def act (v : Ideal .f32) : Ideal .f32 :=
  Scalar.select (FloatOps.cmpf .ogt v (Scalar.ofBits .f32 0x00000000#32)) v
    (FloatOps.subf (FloatOps.exp (FloatOps.minimumf v (Scalar.ofBits .f32 0x00000000#32))) (Scalar.ofBits .f32 0x3F800000#32))

/-- The last stage on whole arrays: act of a + h · (column n) + (row b), entry by entry. -/
def finish (a h : FVec Ideal ⟨2, ![655488, 64]⟩ .f32) (n : FVec Ideal ⟨2, ![655488, 1]⟩ .f32)
    (b : FVec Ideal ⟨2, ![1, 64]⟩ .f32) : FVec Ideal ⟨2, ![655488, 64]⟩ .f32 :=
  fun j => act ((a j + h j * n (ix2 (j 0) (0 : Fin 1))) + b (ix2 (0 : Fin 1) (j 1)))

theorem finish_apply (a h : FVec Ideal ⟨2, ![655488, 64]⟩ .f32) (n : FVec Ideal ⟨2, ![655488, 1]⟩ .f32)
    (b : FVec Ideal ⟨2, ![1, 64]⟩ .f32) (p : Fin 655488) (c : Fin 64) :
    finish a h n b (ix2 p c) = act ((a (ix2 p c) + h (ix2 p c) * n (ix2 p (0 : Fin 1))) + b (ix2 (0 : Fin 1) c)) := rfl

end Cert.Spec

end
-- ==== Proof.KerChain.lean ====
/-
  The host computation between the kernel's two launches, named piece by piece: the scatter of the product's rows into
  the fine nodes' rows, and the chain over the edge list (degrees, normalisers, edge weights, the aggregation, the
  squared normalisers). Each definition is the program's own operations on its operands, in the program's order.
-/
import proofs.«126996_j68831145885827_2_alg».proof.Proof.Gen.KernelIdeal

noncomputable section

namespace Cert.KernelIdeal.Chain

open Cert.KernelIdeal Cert.KernelIdeal.Facts₀ Idealize.ShloMosaic

variable {F : FTy → Type} [FloatOps F]

/-- A vector of index words as a column, a negative word wrapped once by the number of rows (655488). -/
def wrapCol163968 (u : IVec S163968 32) : IVec S163968x1 32 :=
  broadcastInDim S163968x1 ![0] bcast_S163968_S163968x1_0
    (select (cmpi .slt u (broadcastInDim S163968 ![] bcast_S_S163968 (constantI S_ 32 0#32)))
      (addi u (broadcastInDim S163968 ![] bcast_S_S163968 (constantI S_ 32 655488#32))) u)

/-- The same for an edge-length vector of index words. -/
def wrapCol (v : IVec S3932160 32) : IVec S3932160x1 32 :=
  broadcastInDim S3932160x1 ![0] bcast_S3932160_S3932160x1_0
    (select (cmpi .slt v (broadcastInDim S3932160 ![] bcast_S_S3932160 (constantI S_ 32 0#32)))
      (addi v (broadcastInDim S3932160 ![] bcast_S_S3932160 (constantI S_ 32 655488#32))) v)

/-- Row 0 of the edge list: the source node of every edge. -/
def srcOf (e : IVec S2x3932160 32) : IVec S3932160 32 :=
  shapeCast S3932160 (extractStridedSlice S1x3932160 ![0, 0] e slices_S2x3932160_S1x3932160_0_0) shapeCasts_S1x3932160_S3932160

/-- Row 1 of the edge list: the destination node of every edge. -/
def dstOf (e : IVec S2x3932160 32) : IVec S3932160 32 :=
  shapeCast S3932160 (extractStridedSlice S1x3932160 ![1, 0] e slices_S2x3932160_S1x3932160_1_0) shapeCasts_S1x3932160_S3932160

/-- The normaliser of every node: 1 / sqrt(1 + the number of edges that end at it). -/
def normOf (e : IVec S2x3932160 32) : FVec F S655488 .f32 :=
  Host.rsqrt (addf
    (Host.scatterAdd scatter_S655488_S3932160x1_S3932160_n_0_0_1
      (broadcastInDim S655488 ![] bcast_S_S655488 (constant S_ .f32 0x00000000#32))
      (broadcastInDim S3932160x1 ![0] bcast_S3932160_S3932160x1_0 (dstOf e))
      (broadcastInDim S3932160 ![] bcast_S_S3932160 (constant S_ .f32 0x3F800000#32)))
    (broadcastInDim S655488 ![] bcast_S_S655488 (constant S_ .f32 0x3F800000#32)))

/-- The weight of every edge, as a column: the product of its two end nodes' normalisers. -/
def coefOf (e : IVec S2x3932160 32) : FVec F S3932160x1 .f32 :=
  broadcastInDim S3932160x1 ![0] bcast_S3932160_S3932160x1_0
    (mulf (Host.gather gather_S655488_S3932160x1_S3932160_n_0_n_n_0_1_1 (normOf (F := F) e) (wrapCol (srcOf e)))
      (Host.gather gather_S655488_S3932160x1_S3932160_n_0_n_n_0_1_1 (normOf (F := F) e) (wrapCol (dstOf e))))

/-- The aggregation over edges: every node receives, from each edge ending at it, the source node's feature row
    times the edge's weight. -/
def aggOf (h : FVec F S655488x64 .f32) (e : IVec S2x3932160 32) : FVec F S655488x64 .f32 :=
  Host.scatterAdd scatter_S655488x64_S3932160x1_S3932160x64_1_0_0_1
    (broadcastInDim S655488x64 ![] bcast_S_S655488x64 (constant S_ .f32 0x00000000#32))
    (broadcastInDim S3932160x1 ![0] bcast_S3932160_S3932160x1_0 (dstOf e))
    (mulf (Host.gather gather_S655488x64_S3932160x1_S3932160x64_1_0_n_n_0_1_164 h (wrapCol (srcOf e)))
      (broadcastInDim S3932160x64 ![0, 1] bcast_S3932160x1_S3932160x64_0_1 (coefOf (F := F) e)))

/-- Every node's squared normaliser, as a column. -/
def normSqCol (e : IVec S2x3932160 32) : FVec F S655488x1 .f32 :=
  broadcastInDim S655488x1 ![0] bcast_S655488_S655488x1_0 (mulf (normOf (F := F) e) (normOf (F := F) e))

/-- The unpooling: rows of the product written at the fine nodes the index words name, zero elsewhere. -/
def unpool (u : IVec S163968 32) (hx : FVec F S163968x64 .f32) : FVec F S655488x64 .f32 :=
  Host.scatter scatter_S655488x64_S163968x1_S163968x64_1_0_0_1 (fun _ b => b)
    (broadcastInDim S655488x64 ![] bcast_S_S655488x64 (constant S_ .f32 0x00000000#32)) (wrapCol163968 u) hx

/-- The bias as a one-row matrix. -/
def biasRow (b : FVec F S64 .f32) : FVec F S1x64 .f32 := shapeCast S1x64 b shapeCasts_S64_S1x64

end Cert.KernelIdeal.Chain

end
-- ==== Proof.KerOut.lean ====
/-
  The idealized kernel's result as one function of its five arguments: the last stage applied to the aggregation over
  edges of the unpooled product rows, plus the unpooled product rows times the squared normalisers, plus the bias.
-/
import proofs.«126996_j68831145885827_2_alg».proof.Proof.Spec
import proofs.«126996_j68831145885827_2_alg».proof.Proof.KerChain

noncomputable section

namespace Cert.KernelIdeal.KRun

open Cert.KernelIdeal Idealize.ShloMosaic

/-- The kernel's result as one function of its five arguments. -/
def kerOut (x : FVec Ideal S163968x128 .f32) (W : FVec Ideal S128x64 .f32) (b : FVec Ideal S64 .f32) (e : IVec S2x3932160 32)
    (u : IVec S163968 32) : FVec Ideal S655488x64 .f32 :=
  Cert.Spec.finish (Chain.aggOf (F := Ideal) (Chain.unpool (F := Ideal) u (Cert.Spec.rowsTimes x W)) e)
    (Chain.unpool (F := Ideal) u (Cert.Spec.rowsTimes x W)) (Chain.normSqCol (F := Ideal) e) (Chain.biasRow (F := Ideal) b)

end Cert.KernelIdeal.KRun

end
-- ==== Proof.HostStretch.lean ====
/-
  The host operations between the kernel's two launches, read back at the four arrays the second launch takes:
  the aggregated neighbours, the unpooled node features, the squared normalisers as a column, the bias as a row —
  each the named piece of the chain, of the first launch's result and of the arguments.
-/
import proofs.«126996_j68831145885827_2_alg».proof.Proof.Gen.KernelIdeal.Launch
import proofs.«126996_j68831145885827_2_alg».proof.Proof.KerChain
import Idealize.ShloMosaic.Lib.StableHlo.Run

noncomputable section

namespace Cert.KernelIdeal.HostStretch

open Cert.KernelIdeal Cert.KernelIdeal.Gen Idealize.ShloMosaic Idealize.ShloMosaic.TcCoe Idealize.ShloMosaic.StableHlo

variable {F : FTy → Type} [FloatOps F]

attribute [local irreducible] Host.scatter Host.scatterAdd Host.gather in
set_option maxHeartbeats 1600000 in
/-- The node features: the first launch's rows unpooled at the index words. -/
theorem feat_eq (W : Valuation τ sig (Elt F)) :
    after hostOps1 W (Proc.devRef .tc main_v8)
      = Chain.unpool (F := F) (W (Proc.devRef .tc main_arg4)) (W (Proc.devRef .tc main_v0)) := by
  after_results_simp
  rfl

attribute [local irreducible] Host.scatter Host.scatterAdd Host.gather in
set_option maxHeartbeats 1600000 in
/-- The aggregation over edges of the node features. -/
theorem agg_eq (W : Valuation τ sig (Elt F)) :
    after hostOps1 W (Proc.devRef .tc main_v47)
      = Chain.aggOf (F := F) (Chain.unpool (F := F) (W (Proc.devRef .tc main_arg4)) (W (Proc.devRef .tc main_v0)))
          (W (Proc.devRef .tc main_arg3)) := by
  after_results_simp
  rfl

attribute [local irreducible] Host.scatter Host.scatterAdd Host.gather in
set_option maxHeartbeats 1600000 in
/-- The squared normalisers, as a column. -/
theorem normSq_eq (W : Valuation τ sig (Elt F)) :
    after hostOps1 W (Proc.devRef .tc main_v49) = Chain.normSqCol (F := F) (W (Proc.devRef .tc main_arg3)) := by
  after_results_simp
  rfl

set_option maxHeartbeats 1600000 in
/-- The bias, as a one-row matrix. -/
theorem bias_eq (W : Valuation τ sig (Elt F)) :
    after hostOps1 W (Proc.devRef .tc main_v50) = Chain.biasRow (F := F) (W (Proc.devRef .tc main_arg2)) := by
  after_results_simp
  rfl

end Cert.KernelIdeal.HostStretch

end
-- ==== Proof.Region0.lean ====
/-
  The first launch read as one function of the arrays it finds.

  The launch walks 21 blocks of 7808 rows. At each block it multiplies the block of the left array (7808 × 128) by the
  whole right array (128 × 64) and writes the product to the same block of rows of the output. Read entry by entry, the
  block's product at (p, q) is the sum over k of left(p, k) · right(k, q); block t holds rows 7808·t … 7808·t + 7807, and
  the 21 blocks cover all 163968 rows. So the output array ends holding the product of the two arrays, entry by entry.
-/
import proofs.«126996_j68831145885827_2_alg».proof.Proof.Gen.KernelIdeal.Frame
import proofs.«126996_j68831145885827_2_alg».proof.Proof.Spec
import Idealize.ShloMosaic.Lib.Pipeline.Value
import Idealize.ShloMosaic.Lib.ValueIdx
import Idealize.ShloMosaic.PureOps.Ideal.Laws

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Entry (p, q) of the product of a 7808 × 128 block by the 128 × 64 matrix: the narrowing of each operand is the
    identity on extended reals, and the product accumulated into zero is the sum over the contracted coordinate. -/
theorem blockTimes_apply (x0 : Vec Ideal S7808x128 .f32) (x1 : Vec Ideal S128x64 .f32) (p : Fin 7808) (q : Fin 64) :
    k0_pay1 x0 x1 (ix2 p q) = ∑ k : Fin 128, x0 (ix2 p k) * x1 (ix2 k q) := by
  unfold k0_pay1
  show FloatOps.matmul dot_S7808x128_S128x64_S7808x64_1_0_0_1_n_n none (truncf (F := Ideal) .bf16 x0 bitsLt_bf16_f32) (truncf (F := Ideal) .bf16 x1 bitsLt_bf16_f32)
    (constant (F := Ideal) S7808x64 .f32 0x00000000#32) (ix2 p q) = _
  rw [Ideal.matmul_constant_zero_apply,
    ← Equiv.sum_comp (contrEquiv1 dot_S7808x128_S128x64_S7808x64_1_0_0_1_n_n 128 rfl rfl).symm]
  refine Finset.sum_congr rfl fun k _ => ?_
  have ck := contrEquiv1_symm_val dot_S7808x128_S128x64_S7808x64_1_0_0_1_n_n 128 rfl rfl k
  have hl : dot_S7808x128_S128x64_S7808x64_1_0_0_1_n_n.lhsIdx (ix2 p q)
      ((contrEquiv1 dot_S7808x128_S128x64_S7808x64_1_0_0_1_n_n 128 rfl rfl).symm k) = ix2 p k := by
    funext ax; apply Fin.ext
    match ax with
    | ⟨0, _⟩ => simp [DotDims.lhsIdx, dot_S7808x128_S128x64_S7808x64_1_0_0_1_n_n]; rfl
    | ⟨1, _⟩ => simp [DotDims.lhsIdx, dot_S7808x128_S128x64_S7808x64_1_0_0_1_n_n]; exact ck
  have hr : dot_S7808x128_S128x64_S7808x64_1_0_0_1_n_n.rhsIdx (ix2 p q)
      ((contrEquiv1 dot_S7808x128_S128x64_S7808x64_1_0_0_1_n_n 128 rfl rfl).symm k) = ix2 k q := by
    funext ax; apply Fin.ext
    match ax with
    | ⟨0, _⟩ => simp [DotDims.rhsIdx, dot_S7808x128_S128x64_S7808x64_1_0_0_1_n_n]; exact ck
    | ⟨1, _⟩ => simp [DotDims.rhsIdx, dot_S7808x128_S128x64_S7808x64_1_0_0_1_n_n]; rfl
  rw [hl, hr]
  rfl

/-- The body's accesses start at the origin of their buffers. -/
theorem origin_times : (![0, 0] : Fin 2 → Nat) = fun _ => 0 := funext fun a => by fin_cases a <;> rfl

/-- The printed index maps, decided over the grid: the output's block of rows is the point's, the left operand's block
    is the same block of rows, and the right operand's block is the whole matrix at every point. -/
theorem index_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

section
variable (V : (c : Dev nD) → (b : Ref sig .tc) → Buf (Elt Ideal) ((c : Thread nD τ).loc b))

/-- What point t writes back is block t of the product of the two argument arrays as the launch finds them. -/
theorem flushed0_eq (c : Dev nD) (t : Fin cfg0.N) :
    (dat0 (F := Ideal) V c).flushed 2 t
      = ((cfg0.win 2).blk t).view.read (Elt Ideal) (Cert.Spec.rowsTimes (V c main_arg0) (V c main_arg1)) := by
  show (cfg0.win 2).cut (grid0.coords t) ((dat0 (F := Ideal) V c).after 2 t) = _
  rw [after0_2]
  unfold out0_2
  rw [View.canon_unit_zero origin_times]
  simp only [View.ld_unit_zero (S := S7808x128) origin_times, View.ld_unit_zero (S := S128x64) origin_times]
  obtain ⟨e0, e1, e2, e3, e4, e5⟩ := index_facts0 t
  have hN : grid0.N = 21 := N_0
  have ht : t.val < 21 := hN ▸ t.isLt
  funext j
  obtain ⟨p, q, rfl⟩ : ∃ (p : Fin 7808) (q : Fin 64), j = ix2 p q := ⟨j 0, j 1, eq_ix2 j⟩
  have hp : p.val < 7808 := p.isLt
  have hrow : t.val * 7808 + p.val < 163968 := by omega
  show k0_pay1 (iblk0 V c 0 t) (iblk0 V c 1 t) (ix2 p q)
    = Cert.Spec.rowsTimes (V c main_arg0) (V c main_arg1) (((cfg0.win 2).blk t).view.emb (ix2 p q))
  have hemb : ((cfg0.win 2).blk t).view.emb (ix2 p q) = (ix2 (⟨t.val * 7808 + p.val, hrow⟩ : Fin 163968) q : S163968x64.Idx) := by
    funext a; apply Fin.ext
    match a with
    | ⟨0, _⟩ => show win0_2.index t (0 : Fin 2) * 7808 + 1 * p.val = t.val * 7808 + p.val; omega
    | ⟨1, _⟩ => show win0_2.index t (1 : Fin 2) * 64 + 1 * q.val = q.val; omega
  have h0 : ∀ k : Fin 128, iblk0 V c 0 t (ix2 p k)
      = (V c main_arg0 : S163968x128.Idx → Elt Ideal .f32) (ix2 (⟨t.val * 7808 + p.val, hrow⟩ : Fin 163968) k) := fun k => by
    show (V c main_arg0 : S163968x128.Idx → Elt Ideal .f32) (((cfg0.win 0).blk t).view.emb (ix2 p k)) = _
    refine congrArg (V c main_arg0 : S163968x128.Idx → Elt Ideal .f32) ?_
    funext a; apply Fin.ext
    match a with
    | ⟨0, _⟩ => show win0_0.index t (0 : Fin 2) * 7808 + 1 * p.val = t.val * 7808 + p.val; omega
    | ⟨1, _⟩ => show win0_0.index t (1 : Fin 2) * 128 + 1 * k.val = k.val; omega
  have h1 : ∀ k : Fin 128, iblk0 V c 1 t (ix2 k q) = (V c main_arg1 : S128x64.Idx → Elt Ideal .f32) (ix2 k q) := fun k => by
    show (V c main_arg1 : S128x64.Idx → Elt Ideal .f32) (((cfg0.win 1).blk t).view.emb (ix2 k q)) = _
    refine congrArg (V c main_arg1 : S128x64.Idx → Elt Ideal .f32) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  refine (blockTimes_apply (iblk0 V c 0 t) (iblk0 V c 1 t) p q).trans ?_
  refine Eq.trans ?_ (congrArg (Cert.Spec.rowsTimes (V c main_arg0) (V c main_arg1)) hemb).symm
  rw [Cert.Spec.rowsTimes_apply]
  exact Finset.sum_congr rfl fun k _ => by rw [h0 k, h1 k]

/-- An index of the array is in point t's block iff each coordinate is in the block's range on its axis. -/
theorem mem_block0 (t : Fin cfg0.N) (i : S163968x64.Idx) :
    i ∈ ((cfg0.win 2).blk t).view.set ↔ ∀ a : Fin 2, win0_2.index t a * S7808x64.size a ≤ (i a).val ∧ (i a).val < win0_2.index t a * S7808x64.size a + S7808x64.size a := by
  show i ∈ ((View.whole main_v0).slice (win0_2.rect t)).set ↔ _
  rw [View.set_slice_whole, Rect.mem_set_unit]
  exact Iff.rfl

/-- Every row of the array is in some point's block: row r is in the block of point r / 7808. -/
theorem covered0 (i : S163968x64.Idx) :
    ∃ t : Fin cfg0.N, (cfg0.win 2).flush t = true ∧ i ∈ ((cfg0.win 2).blk t).view.set := by
  have hN : grid0.N = 21 := N_0
  have hi0 : (i 0).val < 163968 := (i 0).isLt
  have hi1 : (i 1).val < 64 := (i 1).isLt
  let t : Fin cfg0.N := ⟨(i 0).val / 7808, by show (i 0).val / 7808 < grid0.N; omega⟩
  obtain ⟨e0, e1, -⟩ := index_facts0 t
  have e0' : win0_2.index t (0 : Fin 2) = (i 0).val / 7808 := e0
  refine ⟨t, flush0_2 t, ?_⟩
  rw [mem_block0]
  intro a
  match a with
  | ⟨0, _⟩ => show win0_2.index t (0 : Fin 2) * 7808 ≤ (i 0).val ∧ (i 0).val < win0_2.index t (0 : Fin 2) * 7808 + 7808; omega
  | ⟨1, _⟩ => show win0_2.index t (1 : Fin 2) * 64 ≤ (i 1).val ∧ (i 1).val < win0_2.index t (1 : Fin 2) * 64 + 64; omega

/-- The output array after the launch is the product of the two argument arrays as the launch finds them. -/
theorem final0 (c : Dev nD) : (Gen.dat0 (F := Ideal) V c).arrAt 2 cfg0.N = Cert.Spec.rowsTimes (V c main_arg0) (V c main_arg1) :=
  (dat0 (F := Ideal) V c).arrAt_eq_of_cover 2 (Cert.Spec.rowsTimes (V c main_arg0) (V c main_arg1))
    (fun t _ => flushed0_eq V c t) covered0

end

end Cert.KernelIdeal.Regions

end
-- ==== Proof.Region1.lean ====
/-
  The second launch read as one function of the arrays it finds.

  The launch walks 144 blocks of 4552 rows. At each block it takes the same block of rows of the aggregated array a, of the
  feature array h and of the column n, and the whole bias row b, and writes to the same block of rows of the output, at
  (p, c), the last stage of a(p, c) + h(p, c) · n(p, 0) + b(0, c): the sum itself where it is positive, exp(min(sum, 0)) − 1
  elsewhere. Block t holds rows 4552·t … 4552·t + 4551, and the 144 blocks cover all 655488 rows. So the output array ends
  holding that last stage of the four arrays, entry by entry.
-/
import proofs.«126996_j68831145885827_2_alg».proof.Proof.Gen.KernelIdeal.Frame
import proofs.«126996_j68831145885827_2_alg».proof.Proof.Spec
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- A column laid along every column: a [a, 1] array broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, c) of what the body stores, from its four loaded blocks: the casts to the same shape are the identity, the
    bias row is read at (0, c), the column at (p, 0), and the pointwise operations entry by entry. -/
theorem finishBlock_apply (x0 x1 : Vec Ideal S4552x64 .f32) (x2 : Vec Ideal S4552x1 .f32) (x3 : Vec Ideal S1x64 .f32)
    (p : Fin 4552) (c : Fin 64) :
    k1_pay1 x0 x1 x2 x3 (ix2 p c)
      = Cert.Spec.act ((x0 (ix2 p c) + x1 (ix2 p c) * x2 (ix2 p (0 : Fin 1))) + x3 (ix2 (0 : Fin 1) c)) := by
  unfold k1_pay1
  simp only [shapeCast_self]
  have hrow := broadcastTo_1b_ab_apply (a := 4552) x3 broadcasts_S1x64_S4552x64 p c
  have hcol := broadcastTo_a1_ab_apply (b := 64) x2 broadcasts_S4552x1_S4552x64 p c
  show Cert.Spec.act ((x0 (ix2 p c) + x1 (ix2 p c) * broadcastTo S4552x64 x2 broadcasts_S4552x1_S4552x64 (ix2 p c))
      + broadcastTo S4552x64 x3 broadcasts_S1x64_S4552x64 (ix2 p c)) = _
  rw [hrow, hcol]

/-- The body's accesses start at the origin of their buffers. -/
theorem origin_finish : (![0, 0] : Fin 2 → Nat) = fun _ => 0 := funext fun a => by fin_cases a <;> rfl

/-- The printed index maps, decided over the grid: the output's block of rows is the point's, the three blocked operands'
    blocks are the same block of rows, and the bias row's block is the whole row at every point. -/
theorem index_facts1 : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

section
variable (V : (c : Dev nD) → (b : Ref sig .tc) → Buf (Elt Ideal) ((c : Thread nD τ).loc b))

/-- What point t writes back is block t of the last stage of the four arrays as the launch finds them. -/
theorem flushed1_eq (c : Dev nD) (t : Fin cfg1.N) :
    (dat1 (F := Ideal) V c).flushed 4 t
      = ((cfg1.win 4).blk t).view.read (Elt Ideal)
          (Cert.Spec.finish (V c main_v47) (V c main_v8) (V c main_v49) (V c main_v50)) := by
  show (cfg1.win 4).cut (grid1.coords t) ((dat1 (F := Ideal) V c).after 4 t) = _
  rw [after1_4]
  unfold out1_4
  rw [View.canon_unit_zero origin_finish]
  simp only [View.ld_unit_zero (S := S4552x64) origin_finish, View.ld_unit_zero (S := S4552x1) origin_finish,
    View.ld_unit_zero (S := S1x64) origin_finish]
  obtain ⟨e0, e1, e2, e3, e4, e5, e6, e7, e8, e9⟩ := index_facts1 t
  have hN : grid1.N = 144 := N_1
  have ht : t.val < 144 := hN ▸ t.isLt
  funext j
  obtain ⟨p, q, rfl⟩ : ∃ (p : Fin 4552) (q : Fin 64), j = ix2 p q := ⟨j 0, j 1, eq_ix2 j⟩
  have hp : p.val < 4552 := p.isLt
  have hrow : t.val * 4552 + p.val < 655488 := by omega
  show k1_pay1 (iblk1 V c 0 t) (iblk1 V c 1 t) (iblk1 V c 2 t) (iblk1 V c 3 t) (ix2 p q)
    = Cert.Spec.finish (V c main_v47) (V c main_v8) (V c main_v49) (V c main_v50) (((cfg1.win 4).blk t).view.emb (ix2 p q))
  have hemb : ((cfg1.win 4).blk t).view.emb (ix2 p q) = (ix2 (⟨t.val * 4552 + p.val, hrow⟩ : Fin 655488) q : S655488x64.Idx) := by
    funext a; apply Fin.ext
    match a with
    | ⟨0, _⟩ => show win1_4.index t (0 : Fin 2) * 4552 + 1 * p.val = t.val * 4552 + p.val; omega
    | ⟨1, _⟩ => show win1_4.index t (1 : Fin 2) * 64 + 1 * q.val = q.val; omega
  have h0 : iblk1 V c 0 t (ix2 p q)
      = (V c main_v47 : S655488x64.Idx → Elt Ideal .f32) (ix2 (⟨t.val * 4552 + p.val, hrow⟩ : Fin 655488) q) := by
    show (V c main_v47 : S655488x64.Idx → Elt Ideal .f32) (((cfg1.win 0).blk t).view.emb (ix2 p q)) = _
    refine congrArg (V c main_v47 : S655488x64.Idx → Elt Ideal .f32) ?_
    funext a; apply Fin.ext
    match a with
    | ⟨0, _⟩ => show win1_0.index t (0 : Fin 2) * 4552 + 1 * p.val = t.val * 4552 + p.val; omega
    | ⟨1, _⟩ => show win1_0.index t (1 : Fin 2) * 64 + 1 * q.val = q.val; omega
  have h1 : iblk1 V c 1 t (ix2 p q)
      = (V c main_v8 : S655488x64.Idx → Elt Ideal .f32) (ix2 (⟨t.val * 4552 + p.val, hrow⟩ : Fin 655488) q) := by
    show (V c main_v8 : S655488x64.Idx → Elt Ideal .f32) (((cfg1.win 1).blk t).view.emb (ix2 p q)) = _
    refine congrArg (V c main_v8 : S655488x64.Idx → Elt Ideal .f32) ?_
    funext a; apply Fin.ext
    match a with
    | ⟨0, _⟩ => show win1_1.index t (0 : Fin 2) * 4552 + 1 * p.val = t.val * 4552 + p.val; omega
    | ⟨1, _⟩ => show win1_1.index t (1 : Fin 2) * 64 + 1 * q.val = q.val; omega
  have h2 : iblk1 V c 2 t (ix2 p (0 : Fin 1))
      = (V c main_v49 : S655488x1.Idx → Elt Ideal .f32) (ix2 (⟨t.val * 4552 + p.val, hrow⟩ : Fin 655488) (0 : Fin 1)) := by
    show (V c main_v49 : S655488x1.Idx → Elt Ideal .f32) (((cfg1.win 2).blk t).view.emb (ix2 p (0 : Fin 1))) = _
    refine congrArg (V c main_v49 : S655488x1.Idx → Elt Ideal .f32) ?_
    funext a; apply Fin.ext
    match a with
    | ⟨0, _⟩ => show win1_2.index t (0 : Fin 2) * 4552 + 1 * p.val = t.val * 4552 + p.val; omega
    | ⟨1, _⟩ => show win1_2.index t (1 : Fin 2) * 1 + 1 * 0 = 0; omega
  have h3 : iblk1 V c 3 t (ix2 (0 : Fin 1) q) = (V c main_v50 : S1x64.Idx → Elt Ideal .f32) (ix2 (0 : Fin 1) q) := by
    show (V c main_v50 : S1x64.Idx → Elt Ideal .f32) (((cfg1.win 3).blk t).view.emb (ix2 (0 : Fin 1) q)) = _
    refine congrArg (V c main_v50 : S1x64.Idx → Elt Ideal .f32) ?_
    funext a; apply Fin.ext
    match a with
    | ⟨0, _⟩ => show win1_3.index t (0 : Fin 2) * 1 + 1 * 0 = 0; omega
    | ⟨1, _⟩ => show win1_3.index t (1 : Fin 2) * 64 + 1 * q.val = q.val; omega
  refine (finishBlock_apply (iblk1 V c 0 t) (iblk1 V c 1 t) (iblk1 V c 2 t) (iblk1 V c 3 t) p q).trans ?_
  refine Eq.trans ?_ (congrArg (Cert.Spec.finish (V c main_v47) (V c main_v8) (V c main_v49) (V c main_v50)) hemb).symm
  rw [Cert.Spec.finish_apply, h0, h1, h2, h3]

/-- An index of the array is in point t's block iff each coordinate is in the block's range on its axis. -/
theorem mem_block1 (t : Fin cfg1.N) (i : S655488x64.Idx) :
    i ∈ ((cfg1.win 4).blk t).view.set ↔ ∀ a : Fin 2, win1_4.index t a * S4552x64.size a ≤ (i a).val ∧ (i a).val < win1_4.index t a * S4552x64.size a + S4552x64.size a := by
  show i ∈ ((View.whole main_v51).slice (win1_4.rect t)).set ↔ _
  rw [View.set_slice_whole, Rect.mem_set_unit]
  exact Iff.rfl

/-- Every row of the array is in some point's block: row r is in the block of point r / 4552. -/
theorem covered1 (i : S655488x64.Idx) :
    ∃ t : Fin cfg1.N, (cfg1.win 4).flush t = true ∧ i ∈ ((cfg1.win 4).blk t).view.set := by
  have hN : grid1.N = 144 := N_1
  have hi0 : (i 0).val < 655488 := (i 0).isLt
  have hi1 : (i 1).val < 64 := (i 1).isLt
  let t : Fin cfg1.N := ⟨(i 0).val / 4552, by show (i 0).val / 4552 < grid1.N; omega⟩
  obtain ⟨e0, e1, -⟩ := index_facts1 t
  have e0' : win1_4.index t (0 : Fin 2) = (i 0).val / 4552 := e0
  refine ⟨t, flush1_4 t, ?_⟩
  rw [mem_block1]
  intro a
  match a with
  | ⟨0, _⟩ => show win1_4.index t (0 : Fin 2) * 4552 ≤ (i 0).val ∧ (i 0).val < win1_4.index t (0 : Fin 2) * 4552 + 4552; omega
  | ⟨1, _⟩ => show win1_4.index t (1 : Fin 2) * 64 ≤ (i 1).val ∧ (i 1).val < win1_4.index t (1 : Fin 2) * 64 + 64; omega

/-- The output array after the launch is the last stage of the four arrays as the launch finds them. -/
theorem final1 (c : Dev nD) : (Gen.dat1 (F := Ideal) V c).arrAt 4 cfg1.N = Cert.Spec.finish (V c main_v47) (V c main_v8) (V c main_v49) (V c main_v50) :=
  (dat1 (F := Ideal) V c).arrAt_eq_of_cover 4 (Cert.Spec.finish (V c main_v47) (V c main_v8) (V c main_v49) (V c main_v50))
    (fun t _ => flushed1_eq V c t) covered1

end

end Cert.KernelIdeal.Regions

end
-- ==== Proof.KernelRun.lean ====
/-
  The idealized kernel's run with its result named.

  Every weakly fair execution of @main terminates with the result array at what the last launch's write-backs leave,
  and that is, entry by entry, the last stage applied to: the aggregation over edges of the unpooled product rows, plus
  the unpooled product rows times the squared normalisers, plus the bias — the first launch's array being the product
  x · W row by row, the host operations between the launches the named chain, the second launch the last stage.
-/
import proofs.«126996_j68831145885827_2_alg».proof.Proof.Gen.KernelIdeal.Frame
import proofs.«126996_j68831145885827_2_alg».proof.Proof.RunResult
import proofs.«126996_j68831145885827_2_alg».proof.Proof.Spec
import proofs.«126996_j68831145885827_2_alg».proof.Proof.KerChain
import proofs.«126996_j68831145885827_2_alg».proof.Proof.KerOut
import proofs.«126996_j68831145885827_2_alg».proof.Proof.HostStretch
import proofs.«126996_j68831145885827_2_alg».proof.Proof.Region0
import proofs.«126996_j68831145885827_2_alg».proof.Proof.Region1

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL.Sem

/-! ## The last boundary's contents at the result array, as the named chain of the arguments -/

section Value

variable (m : (ℓ : Loc nD τ sig) → Buf (Elt Ideal) ℓ) (ρ : Dev nD → PrngReg)

/-- After the first launch its result array holds the product x · W, row by row. -/
theorem W1_prod (c : Dev nD) :
    W1 m ρ c (Proc.devRef .tc main_v0)
      = Cert.Spec.rowsTimes (m ((c : Thread nD τ).loc main_arg0)) (m ((c : Thread nD τ).loc main_arg1)) :=
  (W1_arr m ρ c 2).trans (Cert.KernelIdeal.Regions.final0 (V0 m ρ) c)

/-- The first launch leaves the index words, the edge list and the bias as launched. -/
theorem W1_arg4 (c : Dev nD) : W1 m ρ c (Proc.devRef .tc main_arg4) = m ((c : Thread nD τ).loc main_arg4) :=
  W1_of_ne m ρ c main_arg4 (by decide)
theorem W1_arg3 (c : Dev nD) : W1 m ρ c (Proc.devRef .tc main_arg3) = m ((c : Thread nD τ).loc main_arg3) :=
  W1_of_ne m ρ c main_arg3 (by decide)
theorem W1_arg2 (c : Dev nD) : W1 m ρ c (Proc.devRef .tc main_arg2) = m ((c : Thread nD τ).loc main_arg2) :=
  W1_of_ne m ρ c main_arg2 (by decide)

/-- The last boundary's contents at the result array. -/
theorem W3_result (c : Dev nD) :
    W3 m ρ c (Proc.devRef .tc main_v51)
      = kerOut (m ((c : Thread nD τ).loc main_arg0)) (m ((c : Thread nD τ).loc main_arg1)) (m ((c : Thread nD τ).loc main_arg2))
          (m ((c : Thread nD τ).loc main_arg3)) (m ((c : Thread nD τ).loc main_arg4)) := by
  refine (W3_arr m ρ c 4).trans ((Cert.KernelIdeal.Regions.final1 (V2 m ρ) c).trans ?_)
  show Cert.Spec.finish (StableHlo.after hostOps1 (W1 m ρ c) (Proc.devRef .tc main_v47))
      (StableHlo.after hostOps1 (W1 m ρ c) (Proc.devRef .tc main_v8))
      (StableHlo.after hostOps1 (W1 m ρ c) (Proc.devRef .tc main_v49))
      (StableHlo.after hostOps1 (W1 m ρ c) (Proc.devRef .tc main_v50)) = _
  rw [Cert.KernelIdeal.HostStretch.agg_eq, Cert.KernelIdeal.HostStretch.feat_eq, Cert.KernelIdeal.HostStretch.normSq_eq,
    Cert.KernelIdeal.HostStretch.bias_eq, W1_prod, W1_arg4, W1_arg3, W1_arg2]
  rfl

/-- THE KERNEL'S RUN: the result array ends at kerOut of the arguments, the arguments as launched. -/
theorem run : θ_run defs (onTc (τ := τ) (main (F := Ideal))) ⟨m, fun _ => 0, ρ⟩ (fun r => ∀ c : Dev nD,
      r.2.mem ((c.tc : Thread nD τ).loc main_v51)
        = kerOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W3_result m ρ c), (h c).2⟩) (run_result m ρ)

end Value

end Cert.KernelIdeal.KRun

end
-- ==== Proof.RefChain.lean ====
/-
  The reference computation, named piece by piece: the scatter of x's rows into the fine nodes' rows, the product with
  W, the chain over the edge list (degrees, normalisers, edge weights, the aggregation, the squared normalisers), and the
  last stage. Each definition is the program's own operations on its operands, in the program's order.
-/
import proofs.«126996_j68831145885827_2_alg».proof.Proof.Gen.ReferenceIdeal

noncomputable section

namespace Cert.ReferenceIdeal.Chain

open Cert.ReferenceIdeal Cert.ReferenceIdeal.Facts₀ Idealize.ShloMosaic

variable {F : FTy → Type} [FloatOps F]

/-- A vector of index words as a column, a negative word wrapped once by the number of rows (655488). -/
def wrapCol163968 (u : IVec S163968 32) : IVec S163968x1 32 :=
  broadcastInDim S163968x1 ![0] bcast_S163968_S163968x1_0
    (select (cmpi .slt u (broadcastInDim S163968 ![] bcast_S_S163968 (constantI S_ 32 0#32)))
      (addi u (broadcastInDim S163968 ![] bcast_S_S163968 (constantI S_ 32 655488#32))) u)

/-- The same for an edge-length vector of index words. -/
def wrapCol (v : IVec S3932160 32) : IVec S3932160x1 32 :=
  broadcastInDim S3932160x1 ![0] bcast_S3932160_S3932160x1_0
    (select (cmpi .slt v (broadcastInDim S3932160 ![] bcast_S_S3932160 (constantI S_ 32 0#32)))
      (addi v (broadcastInDim S3932160 ![] bcast_S_S3932160 (constantI S_ 32 655488#32))) v)

/-- Row 0 of the edge list: the source node of every edge. -/
def srcOf (e : IVec S2x3932160 32) : IVec S3932160 32 :=
  shapeCast S3932160 (extractStridedSlice S1x3932160 ![0, 0] e slices_S2x3932160_S1x3932160_0_0) shapeCasts_S1x3932160_S3932160

/-- Row 1 of the edge list: the destination node of every edge. -/
def dstOf (e : IVec S2x3932160 32) : IVec S3932160 32 :=
  shapeCast S3932160 (extractStridedSlice S1x3932160 ![1, 0] e slices_S2x3932160_S1x3932160_1_0) shapeCasts_S1x3932160_S3932160

/-- The normaliser of every node: 1 / sqrt(1 + the number of edges that end at it). -/
def normOf (e : IVec S2x3932160 32) : FVec F S655488 .f32 :=
  Host.rsqrt (addf
    (Host.scatterAdd scatter_S655488_S3932160x1_S3932160_n_0_0_1
      (broadcastInDim S655488 ![] bcast_S_S655488 (constant S_ .f32 0x00000000#32))
      (broadcastInDim S3932160x1 ![0] bcast_S3932160_S3932160x1_0 (dstOf e))
      (broadcastInDim S3932160 ![] bcast_S_S3932160 (constant S_ .f32 0x3F800000#32)))
    (broadcastInDim S655488 ![] bcast_S_S655488 (constant S_ .f32 0x3F800000#32)))

/-- The weight of every edge, as a column: the product of its two end nodes' normalisers. -/
def coefOf (e : IVec S2x3932160 32) : FVec F S3932160x1 .f32 :=
  broadcastInDim S3932160x1 ![0] bcast_S3932160_S3932160x1_0
    (mulf (Host.gather gather_S655488_S3932160x1_S3932160_n_0_n_n_0_1_1 (normOf (F := F) e) (wrapCol (srcOf e)))
      (Host.gather gather_S655488_S3932160x1_S3932160_n_0_n_n_0_1_1 (normOf (F := F) e) (wrapCol (dstOf e))))

/-- The aggregation over edges: every node receives, from each edge ending at it, the source node's feature row
    times the edge's weight. -/
def aggOf (h : FVec F S655488x64 .f32) (e : IVec S2x3932160 32) : FVec F S655488x64 .f32 :=
  Host.scatterAdd scatter_S655488x64_S3932160x1_S3932160x64_1_0_0_1
    (broadcastInDim S655488x64 ![] bcast_S_S655488x64 (constant S_ .f32 0x00000000#32))
    (broadcastInDim S3932160x1 ![0] bcast_S3932160_S3932160x1_0 (dstOf e))
    (mulf (Host.gather gather_S655488x64_S3932160x1_S3932160x64_1_0_n_n_0_1_164 h (wrapCol (srcOf e)))
      (broadcastInDim S3932160x64 ![0, 1] bcast_S3932160x1_S3932160x64_0_1 (coefOf (F := F) e)))

/-- Every node's squared normaliser, as a column. -/
def normSqCol (e : IVec S2x3932160 32) : FVec F S655488x1 .f32 :=
  broadcastInDim S655488x1 ![0] bcast_S655488_S655488x1_0 (mulf (normOf (F := F) e) (normOf (F := F) e))

/-- The unpooling: rows of x written at the fine nodes the index words name, zero elsewhere. -/
def unpool (u : IVec S163968 32) (x : FVec F S163968x128 .f32) : FVec F S655488x128 .f32 :=
  Host.scatter scatter_S655488x128_S163968x1_S163968x128_1_0_0_1 (fun _ b => b)
    (broadcastInDim S655488x128 ![] bcast_S_S655488x128 (constant S_ .f32 0x00000000#32)) (wrapCol163968 u) x

/-- The node features: the unpooled rows times W. -/
def featOf (x : FVec F S163968x128 .f32) (W : FVec F S128x64 .f32) (u : IVec S163968 32) : FVec F S655488x64 .f32 :=
  Host.dotGeneral dot_S655488x128_S128x64_S655488x64_1_0_0_1_n_n none (unpool u x) W

/-- What the last stage is applied to: aggregation + own features · squared normaliser + bias. -/
def preAct (h : FVec F S655488x64 .f32) (b : FVec F S64 .f32) (e : IVec S2x3932160 32) : FVec F S655488x64 .f32 :=
  addf (addf (aggOf h e) (mulf h (broadcastInDim S655488x64 ![0, 1] bcast_S655488x1_S655488x64_0_1 (normSqCol (F := F) e))))
    (broadcastInDim S655488x64 ![0, 1] bcast_S1x64_S655488x64_0_1 (broadcastInDim S1x64 ![1] bcast_S64_S1x64_1 b))

/-- The exponential linear unit as the reference spells it: v where v > 0, and 1 · expm1(v') elsewhere, v' being v
    with its positive entries replaced by 0. -/
def eluOf (v : FVec F S655488x64 .f32) : FVec F S655488x64 .f32 :=
  select (cmpf .ogt v (broadcastInDim S655488x64 ![] bcast_S_S655488x64 (constant S_ .f32 0x00000000#32))) v
    (mulf (broadcastInDim S655488x64 ![] bcast_S_S655488x64 (constant S_ .f32 0x3F800000#32))
      (Host.expm1 (select (cmpf .ogt v (broadcastInDim S655488x64 ![] bcast_S_S655488x64 (constant S_ .f32 0x00000000#32)))
        (broadcastInDim S655488x64 ![] bcast_S_S655488x64 (id (constant S_ .f32 0x00000000#32))) v)))

/-- The reference's result as one function of its five arguments. -/
def refOut (x : FVec F S163968x128 .f32) (W : FVec F S128x64 .f32) (b : FVec F S64 .f32) (e : IVec S2x3932160 32)
    (u : IVec S163968 32) : FVec F S655488x64 .f32 :=
  eluOf (preAct (featOf x W u) b e)

end Cert.ReferenceIdeal.Chain

end
-- ==== Proof.RefRun.lean ====
/-
  The reference program's run. @main is a straight line of host operations: its own sixty-nine, then the call of
  @elu, whose body is fourteen more operations and two calls of its own (@_where, three operations; @_where_0,
  one). A call means the callee's body on the call's buffers, so the whole program is ONE list of eighty-four
  operations, `ops` below: the program's lines in order, each callee's lines at its call site over that call's
  buffer record. Every weakly fair execution then terminates with each buffer at the fold of the operations'
  results over the launch contents, and at the result buffer that fold is `Chain.refOut` of the five arguments'
  launch contents, the arguments themselves unchanged.
-/
import proofs.«126996_j68831145885827_2_alg».proof.Proof.Gen.ReferenceIdeal
import proofs.«126996_j68831145885827_2_alg».proof.Proof.RefChain
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's eighty-four operations, in order: @main's first sixty-nine lines; then @elu's body over the
    record `main_call0` (its argument the buffer of %55) — seven lines, @_where's three over `main_call0.call0`
    (its scalar converted to its own type: the identity), four more lines, and @_where_0's one over
    `main_call0.call1`, whose result buffer is @main's result. -/
abbrev ops : List (HloOp τ sig (Elt F)) :=
  [ nullary main_cst (constant S_ .f32 0x00000000#32),
    unary main_cst main_v0 (broadcastInDim S655488x128 ![] bcast_S_S655488x128 : (⟨S_, .f32⟩ : BufTy).Contents (Elt F) → (⟨S655488x128, .f32⟩ : BufTy).Contents (Elt F)),
    nullary main_c (constantI S_ 32 0#32),
    unary main_c main_v1 (broadcastInDim S163968 ![] bcast_S_S163968 : (⟨S_, .i32⟩ : BufTy).Contents (Elt F) → (⟨S163968, .i32⟩ : BufTy).Contents (Elt F)),
    binary main_arg4 main_v1 main_v2 (cmpi .slt : (⟨S163968, .i32⟩ : BufTy).Contents (Elt F) → (⟨S163968, .i32⟩ : BufTy).Contents (Elt F) → (⟨S163968, .i1⟩ : BufTy).Contents (Elt F)),
    nullary main_c_0 (constantI S_ 32 655488#32),
    unary main_c_0 main_v3 (broadcastInDim S163968 ![] bcast_S_S163968 : (⟨S_, .i32⟩ : BufTy).Contents (Elt F) → (⟨S163968, .i32⟩ : BufTy).Contents (Elt F)),
    binary main_arg4 main_v3 main_v4 (addi : (⟨S163968, .i32⟩ : BufTy).Contents (Elt F) → (⟨S163968, .i32⟩ : BufTy).Contents (Elt F) → (⟨S163968, .i32⟩ : BufTy).Contents (Elt F)),
    ternary main_v2 main_v4 main_arg4 main_v5 (select : (⟨S163968, .i1⟩ : BufTy).Contents (Elt F) → (⟨S163968, .i32⟩ : BufTy).Contents (Elt F) → (⟨S163968, .i32⟩ : BufTy).Contents (Elt F) → (⟨S163968, .i32⟩ : BufTy).Contents (Elt F)),
    unary main_v5 main_v6 (broadcastInDim S163968x1 ![0] bcast_S163968_S163968x1_0 : (⟨S163968, .i32⟩ : BufTy).Contents (Elt F) → (⟨S163968x1, .i32⟩ : BufTy).Contents (Elt F)),
    ternary main_v0 main_v6 main_arg0 main_v7 ((fun x i u => Host.scatter scatter_S655488x128_S163968x1_S163968x128_1_0_0_1 (fun _ b => b) x i u) : (⟨S655488x128, .f32⟩ : BufTy).Contents (Elt F) → (⟨S163968x1, .i32⟩ : BufTy).Contents (Elt F) → (⟨S163968x128, .f32⟩ : BufTy).Contents (Elt F) → (⟨S655488x128, .f32⟩ : BufTy).Contents (Elt F)),
    binary main_v7 main_arg1 main_v8 ((fun l r => Host.dotGeneral dot_S655488x128_S128x64_S655488x64_1_0_0_1_n_n none l r) : (⟨S655488x128, .f32⟩ : BufTy).Contents (Elt F) → (⟨S128x64, .f32⟩ : BufTy).Contents (Elt F) → (⟨S655488x64, .f32⟩ : BufTy).Contents (Elt F)),
    unary main_arg3 main_v9 ((extractStridedSlice S1x3932160 ![0, 0] · slices_S2x3932160_S1x3932160_0_0) : (⟨S2x3932160, .i32⟩ : BufTy).Contents (Elt F) → (⟨S1x3932160, .i32⟩ : BufTy).Contents (Elt F)),
    reshape main_v9 main_v10 rfl shapeCasts_S1x3932160_S3932160,
    unary main_arg3 main_v11 ((extractStridedSlice S1x3932160 ![1, 0] · slices_S2x3932160_S1x3932160_1_0) : (⟨S2x3932160, .i32⟩ : BufTy).Contents (Elt F) → (⟨S1x3932160, .i32⟩ : BufTy).Contents (Elt F)),
    reshape main_v11 main_v12 rfl shapeCasts_S1x3932160_S3932160,
    nullary main_cst_1 (constant S_ .f32 0x3F800000#32),
    unary main_cst_1 main_v13 (broadcastInDim S3932160 ![] bcast_S_S3932160 : (⟨S_, .f32⟩ : BufTy).Contents (Elt F) → (⟨S3932160, .f32⟩ : BufTy).Contents (Elt F)),
    nullary main_cst_2 (constant S_ .f32 0x00000000#32),
    unary main_cst_2 main_v14 (broadcastInDim S655488 ![] bcast_S_S655488 : (⟨S_, .f32⟩ : BufTy).Contents (Elt F) → (⟨S655488, .f32⟩ : BufTy).Contents (Elt F)),
    unary main_v12 main_v15 (broadcastInDim S3932160x1 ![0] bcast_S3932160_S3932160x1_0 : (⟨S3932160, .i32⟩ : BufTy).Contents (Elt F) → (⟨S3932160x1, .i32⟩ : BufTy).Contents (Elt F)),
    ternary main_v14 main_v15 main_v13 main_v16 ((fun x i u => Host.scatterAdd scatter_S655488_S3932160x1_S3932160_n_0_0_1 x i u) : (⟨S655488, .f32⟩ : BufTy).Contents (Elt F) → (⟨S3932160x1, .i32⟩ : BufTy).Contents (Elt F) → (⟨S3932160, .f32⟩ : BufTy).Contents (Elt F) → (⟨S655488, .f32⟩ : BufTy).Contents (Elt F)),
    nullary main_cst_3 (constant S_ .f32 0x3F800000#32),
    unary main_cst_3 main_v17 (broadcastInDim S655488 ![] bcast_S_S655488 : (⟨S_, .f32⟩ : BufTy).Contents (Elt F) → (⟨S655488, .f32⟩ : BufTy).Contents (Elt F)),
    binary main_v16 main_v17 main_v18 (addf : (⟨S655488, .f32⟩ : BufTy).Contents (Elt F) → (⟨S655488, .f32⟩ : BufTy).Contents (Elt F) → (⟨S655488, .f32⟩ : BufTy).Contents (Elt F)),
    unary main_v18 main_v19 (Host.rsqrt : (⟨S655488, .f32⟩ : BufTy).Contents (Elt F) → (⟨S655488, .f32⟩ : BufTy).Contents (Elt F)),
    nullary main_c_4 (constantI S_ 32 0#32),
    unary main_c_4 main_v20 (broadcastInDim S3932160 ![] bcast_S_S3932160 : (⟨S_, .i32⟩ : BufTy).Contents (Elt F) → (⟨S3932160, .i32⟩ : BufTy).Contents (Elt F)),
    binary main_v10 main_v20 main_v21 (cmpi .slt : (⟨S3932160, .i32⟩ : BufTy).Contents (Elt F) → (⟨S3932160, .i32⟩ : BufTy).Contents (Elt F) → (⟨S3932160, .i1⟩ : BufTy).Contents (Elt F)),
    nullary main_c_5 (constantI S_ 32 655488#32),
    unary main_c_5 main_v22 (broadcastInDim S3932160 ![] bcast_S_S3932160 : (⟨S_, .i32⟩ : BufTy).Contents (Elt F) → (⟨S3932160, .i32⟩ : BufTy).Contents (Elt F)),
    binary main_v10 main_v22 main_v23 (addi : (⟨S3932160, .i32⟩ : BufTy).Contents (Elt F) → (⟨S3932160, .i32⟩ : BufTy).Contents (Elt F) → (⟨S3932160, .i32⟩ : BufTy).Contents (Elt F)),
    ternary main_v21 main_v23 main_v10 main_v24 (select : (⟨S3932160, .i1⟩ : BufTy).Contents (Elt F) → (⟨S3932160, .i32⟩ : BufTy).Contents (Elt F) → (⟨S3932160, .i32⟩ : BufTy).Contents (Elt F) → (⟨S3932160, .i32⟩ : BufTy).Contents (Elt F)),
    unary main_v24 main_v25 (broadcastInDim S3932160x1 ![0] bcast_S3932160_S3932160x1_0 : (⟨S3932160, .i32⟩ : BufTy).Contents (Elt F) → (⟨S3932160x1, .i32⟩ : BufTy).Contents (Elt F)),
    binary main_v19 main_v25 main_v26 ((fun x i => Host.gather gather_S655488_S3932160x1_S3932160_n_0_n_n_0_1_1 x i) : (⟨S655488, .f32⟩ : BufTy).Contents (Elt F) → (⟨S3932160x1, .i32⟩ : BufTy).Contents (Elt F) → (⟨S3932160, .f32⟩ : BufTy).Contents (Elt F)),
    nullary main_c_6 (constantI S_ 32 0#32),
    unary main_c_6 main_v27 (broadcastInDim S3932160 ![] bcast_S_S3932160 : (⟨S_, .i32⟩ : BufTy).Contents (Elt F) → (⟨S3932160, .i32⟩ : BufTy).Contents (Elt F)),
    binary main_v12 main_v27 main_v28 (cmpi .slt : (⟨S3932160, .i32⟩ : BufTy).Contents (Elt F) → (⟨S3932160, .i32⟩ : BufTy).Contents (Elt F) → (⟨S3932160, .i1⟩ : BufTy).Contents (Elt F)),
    nullary main_c_7 (constantI S_ 32 655488#32),
    unary main_c_7 main_v29 (broadcastInDim S3932160 ![] bcast_S_S3932160 : (⟨S_, .i32⟩ : BufTy).Contents (Elt F) → (⟨S3932160, .i32⟩ : BufTy).Contents (Elt F)),
    binary main_v12 main_v29 main_v30 (addi : (⟨S3932160, .i32⟩ : BufTy).Contents (Elt F) → (⟨S3932160, .i32⟩ : BufTy).Contents (Elt F) → (⟨S3932160, .i32⟩ : BufTy).Contents (Elt F)),
    ternary main_v28 main_v30 main_v12 main_v31 (select : (⟨S3932160, .i1⟩ : BufTy).Contents (Elt F) → (⟨S3932160, .i32⟩ : BufTy).Contents (Elt F) → (⟨S3932160, .i32⟩ : BufTy).Contents (Elt F) → (⟨S3932160, .i32⟩ : BufTy).Contents (Elt F)),
    unary main_v31 main_v32 (broadcastInDim S3932160x1 ![0] bcast_S3932160_S3932160x1_0 : (⟨S3932160, .i32⟩ : BufTy).Contents (Elt F) → (⟨S3932160x1, .i32⟩ : BufTy).Contents (Elt F)),
    binary main_v19 main_v32 main_v33 ((fun x i => Host.gather gather_S655488_S3932160x1_S3932160_n_0_n_n_0_1_1 x i) : (⟨S655488, .f32⟩ : BufTy).Contents (Elt F) → (⟨S3932160x1, .i32⟩ : BufTy).Contents (Elt F) → (⟨S3932160, .f32⟩ : BufTy).Contents (Elt F)),
    binary main_v26 main_v33 main_v34 (mulf : (⟨S3932160, .f32⟩ : BufTy).Contents (Elt F) → (⟨S3932160, .f32⟩ : BufTy).Contents (Elt F) → (⟨S3932160, .f32⟩ : BufTy).Contents (Elt F)),
    unary main_v34 main_v35 (broadcastInDim S3932160x1 ![0] bcast_S3932160_S3932160x1_0 : (⟨S3932160, .f32⟩ : BufTy).Contents (Elt F) → (⟨S3932160x1, .f32⟩ : BufTy).Contents (Elt F)),
    nullary main_c_8 (constantI S_ 32 0#32),
    unary main_c_8 main_v36 (broadcastInDim S3932160 ![] bcast_S_S3932160 : (⟨S_, .i32⟩ : BufTy).Contents (Elt F) → (⟨S3932160, .i32⟩ : BufTy).Contents (Elt F)),
    binary main_v10 main_v36 main_v37 (cmpi .slt : (⟨S3932160, .i32⟩ : BufTy).Contents (Elt F) → (⟨S3932160, .i32⟩ : BufTy).Contents (Elt F) → (⟨S3932160, .i1⟩ : BufTy).Contents (Elt F)),
    nullary main_c_9 (constantI S_ 32 655488#32),
    unary main_c_9 main_v38 (broadcastInDim S3932160 ![] bcast_S_S3932160 : (⟨S_, .i32⟩ : BufTy).Contents (Elt F) → (⟨S3932160, .i32⟩ : BufTy).Contents (Elt F)),
    binary main_v10 main_v38 main_v39 (addi : (⟨S3932160, .i32⟩ : BufTy).Contents (Elt F) → (⟨S3932160, .i32⟩ : BufTy).Contents (Elt F) → (⟨S3932160, .i32⟩ : BufTy).Contents (Elt F)),
    ternary main_v37 main_v39 main_v10 main_v40 (select : (⟨S3932160, .i1⟩ : BufTy).Contents (Elt F) → (⟨S3932160, .i32⟩ : BufTy).Contents (Elt F) → (⟨S3932160, .i32⟩ : BufTy).Contents (Elt F) → (⟨S3932160, .i32⟩ : BufTy).Contents (Elt F)),
    unary main_v40 main_v41 (broadcastInDim S3932160x1 ![0] bcast_S3932160_S3932160x1_0 : (⟨S3932160, .i32⟩ : BufTy).Contents (Elt F) → (⟨S3932160x1, .i32⟩ : BufTy).Contents (Elt F)),
    binary main_v8 main_v41 main_v42 ((fun x i => Host.gather gather_S655488x64_S3932160x1_S3932160x64_1_0_n_n_0_1_164 x i) : (⟨S655488x64, .f32⟩ : BufTy).Contents (Elt F) → (⟨S3932160x1, .i32⟩ : BufTy).Contents (Elt F) → (⟨S3932160x64, .f32⟩ : BufTy).Contents (Elt F)),
    unary main_v35 main_v43 (broadcastInDim S3932160x64 ![0, 1] bcast_S3932160x1_S3932160x64_0_1 : (⟨S3932160x1, .f32⟩ : BufTy).Contents (Elt F) → (⟨S3932160x64, .f32⟩ : BufTy).Contents (Elt F)),
    binary main_v42 main_v43 main_v44 (mulf : (⟨S3932160x64, .f32⟩ : BufTy).Contents (Elt F) → (⟨S3932160x64, .f32⟩ : BufTy).Contents (Elt F) → (⟨S3932160x64, .f32⟩ : BufTy).Contents (Elt F)),
    nullary main_cst_10 (constant S_ .f32 0x00000000#32),
    unary main_cst_10 main_v45 (broadcastInDim S655488x64 ![] bcast_S_S655488x64 : (⟨S_, .f32⟩ : BufTy).Contents (Elt F) → (⟨S655488x64, .f32⟩ : BufTy).Contents (Elt F)),
    unary main_v12 main_v46 (broadcastInDim S3932160x1 ![0] bcast_S3932160_S3932160x1_0 : (⟨S3932160, .i32⟩ : BufTy).Contents (Elt F) → (⟨S3932160x1, .i32⟩ : BufTy).Contents (Elt F)),
    ternary main_v45 main_v46 main_v44 main_v47 ((fun x i u => Host.scatterAdd scatter_S655488x64_S3932160x1_S3932160x64_1_0_0_1 x i u) : (⟨S655488x64, .f32⟩ : BufTy).Contents (Elt F) → (⟨S3932160x1, .i32⟩ : BufTy).Contents (Elt F) → (⟨S3932160x64, .f32⟩ : BufTy).Contents (Elt F) → (⟨S655488x64, .f32⟩ : BufTy).Contents (Elt F)),
    binary main_v19 main_v19 main_v48 (mulf : (⟨S655488, .f32⟩ : BufTy).Contents (Elt F) → (⟨S655488, .f32⟩ : BufTy).Contents (Elt F) → (⟨S655488, .f32⟩ : BufTy).Contents (Elt F)),
    unary main_v48 main_v49 (broadcastInDim S655488x1 ![0] bcast_S655488_S655488x1_0 : (⟨S655488, .f32⟩ : BufTy).Contents (Elt F) → (⟨S655488x1, .f32⟩ : BufTy).Contents (Elt F)),
    unary main_v49 main_v50 (broadcastInDim S655488x64 ![0, 1] bcast_S655488x1_S655488x64_0_1 : (⟨S655488x1, .f32⟩ : BufTy).Contents (Elt F) → (⟨S655488x64, .f32⟩ : BufTy).Contents (Elt F)),
    binary main_v8 main_v50 main_v51 (mulf : (⟨S655488x64, .f32⟩ : BufTy).Contents (Elt F) → (⟨S655488x64, .f32⟩ : BufTy).Contents (Elt F) → (⟨S655488x64, .f32⟩ : BufTy).Contents (Elt F)),
    binary main_v47 main_v51 main_v52 (addf : (⟨S655488x64, .f32⟩ : BufTy).Contents (Elt F) → (⟨S655488x64, .f32⟩ : BufTy).Contents (Elt F) → (⟨S655488x64, .f32⟩ : BufTy).Contents (Elt F)),
    unary main_arg2 main_v53 (broadcastInDim S1x64 ![1] bcast_S64_S1x64_1 : (⟨S64, .f32⟩ : BufTy).Contents (Elt F) → (⟨S1x64, .f32⟩ : BufTy).Contents (Elt F)),
    unary main_v53 main_v54 (broadcastInDim S655488x64 ![0, 1] bcast_S1x64_S655488x64_0_1 : (⟨S1x64, .f32⟩ : BufTy).Contents (Elt F) → (⟨S655488x64, .f32⟩ : BufTy).Contents (Elt F)),
    binary main_v52 main_v54 main_v55 (addf : (⟨S655488x64, .f32⟩ : BufTy).Contents (Elt F) → (⟨S655488x64, .f32⟩ : BufTy).Contents (Elt F) → (⟨S655488x64, .f32⟩ : BufTy).Contents (Elt F)),
    TRef.nullary main_call0.cst (constant S_ .f32 0x00000000#32),
    TRef.unary main_call0.cst main_call0.v0 (broadcastInDim S655488x64 ![] bcast_S_S655488x64),
    TRef.binary (.of main_v55) main_call0.v0 main_call0.v1 (cmpf .ogt),
    TRef.nullary main_call0.cst_0 (constant S_ .f32 0x00000000#32),
    TRef.unary main_call0.cst_0 main_call0.v2 (broadcastInDim S655488x64 ![] bcast_S_S655488x64),
    TRef.binary (.of main_v55) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S655488x64 ![] bcast_S_S655488x64),
    TRef.ternary main_call0.v3 main_call0.call0.v1 (.of main_v55) main_call0.call0.v2 select,
    TRef.unary main_call0.call0.v2 main_call0.v5 Host.expm1,
    TRef.nullary main_call0.cst_2 (constant S_ .f32 0x3F800000#32),
    TRef.unary main_call0.cst_2 main_call0.v6 (broadcastInDim S655488x64 ![] bcast_S_S655488x64),
    TRef.binary main_call0.v6 main_call0.v5 main_call0.v7 mulf,
    TRef.ternary main_call0.v1 (.of main_v55) main_call0.v7 main_call0.call1.v0 select ]

-- eighty-four binds re-associated: the rewrite under the chain recurses once per statement
set_option maxRecDepth 4096 in
set_option maxHeartbeats 1000000 in
/-- @main is that straight line: its two windows and the three functions' definitions unfolded at their calls,
    both sides are one chain of steps once sequencing is re-associated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the list touches TensorCore buffers only. -/
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., binary_bufs_sub ..,
    unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

attribute [local irreducible] Host.scatter Host.scatterAdd Host.gather in
set_option maxRecDepth 8192 in
set_option maxHeartbeats 1000000 in
/-- The fold at the result buffer is `Chain.refOut` of the arguments' contents: each operation's result at its own
    buffer is its function's value and at any other buffer what was there, and what is left is the composed term,
    which `Chain.refOut` unfolds to. The scatters and gathers are kept folded meanwhile: the equation
    never looks inside them. -/
theorem out_eq (V : Valuation τ sig (Elt F)) :
    after ops V (main_v56 : DevRef τ sig)
      = Chain.refOut (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
/-- No operation writes argument 0's buffer. -/
theorem arg0_eq (V : Valuation τ sig (Elt F)) :
    after ops V (main_arg0 : DevRef τ sig) = V (main_arg0 : DevRef τ sig) := by
  after_results_simp

set_option maxRecDepth 8192 in
/-- No operation writes argument 1's buffer. -/
theorem arg1_eq (V : Valuation τ sig (Elt F)) :
    after ops V (main_arg1 : DevRef τ sig) = V (main_arg1 : DevRef τ sig) := by
  after_results_simp

set_option maxRecDepth 8192 in
/-- No operation writes argument 2's buffer. -/
theorem arg2_eq (V : Valuation τ sig (Elt F)) :
    after ops V (main_arg2 : DevRef τ sig) = V (main_arg2 : DevRef τ sig) := by
  after_results_simp

set_option maxRecDepth 8192 in
/-- No operation writes argument 3's buffer. -/
theorem arg3_eq (V : Valuation τ sig (Elt F)) :
    after ops V (main_arg3 : DevRef τ sig) = V (main_arg3 : DevRef τ sig) := by
  after_results_simp

set_option maxRecDepth 8192 in
/-- No operation writes argument 4's buffer. -/
theorem arg4_eq (V : Valuation τ sig (Elt F)) :
    after ops V (main_arg4 : DevRef τ sig) = V (main_arg4 : DevRef τ sig) := by
  after_results_simp

/-- On every device, for any float values, from any memory with zero counters: every weakly fair execution of
    @main terminates with the result buffer at `Chain.refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = Chain.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v56).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.LibSetScatter.lean ====
/-
  A "set" scatter read at one element.

  The host's scatter whose body returns the update (x.at[idx].set(v)) is the left fold, over the updates in row-major
  order, of "overwrite the element this update lands on".  Read at one element i of the result: if no update lands on i
  the element is the operand's; if some do and they all carry the same value a (in particular if exactly one lands
  there), the element is a — whatever the order of the fold.  Which element an update lands on is the dimension numbers'
  result index; this file is independent of them.
-/
import Idealize.ShloMosaic.PureOps.ShapeOps
import Idealize.ShloMosaic.PureOps.Dims

namespace Cert.LibSetScatter

open Idealize.ShloMosaic

section Fold

variable {ι κ α : Type} [DecidableEq κ]

/-- A fold of overwrites read at one key: `a` if some step of the list lands on the key (all that do carry `a`), else the
    start value. -/
theorem foldl_overwrite_apply (g : ι → Option κ) (v : ι → α) (stp : (κ → α) → ι → (κ → α))
    (hs : ∀ r n i, g n = some i → stp r n = fun i' => if i' = i then v n else r i')
    (hn : ∀ r n, g n = none → stp r n = r) (i' : κ) (a : α) :
    ∀ (L : List ι) (x : κ → α), (∀ n ∈ L, g n = some i' → v n = a) →
      L.foldl stp x i' = (open Classical in if ∃ n ∈ L, g n = some i' then a else x i') := by
  classical
  intro L
  induction L with
  | nil => intro x _; simp
  | cons n L ih =>
    intro x hv
    rw [List.foldl_cons, ih (stp x n) (fun n' hn' => hv n' (List.mem_cons_of_mem _ hn'))]
    by_cases hex : ∃ n' ∈ L, g n' = some i'
    · rw [if_pos hex, if_pos (by obtain ⟨n', h1, h2⟩ := hex; exact ⟨n', List.mem_cons_of_mem _ h1, h2⟩)]
    · rw [if_neg hex]
      cases hg : g n with
      | none =>
        rw [hn x n hg, if_neg]
        rintro ⟨n', h1, h2⟩
        rcases List.mem_cons.mp h1 with rfl | h1
        · rw [hg] at h2; cases h2
        · exact hex ⟨n', h1, h2⟩
      | some i =>
        rw [hs x n i hg]
        dsimp only
        by_cases hi : i' = i
        · subst hi
          rw [if_pos rfl, if_pos ⟨n, List.mem_cons_self, hg⟩]
          exact hv n List.mem_cons_self hg
        · rw [if_neg hi, if_neg]
          rintro ⟨n', h1, h2⟩
          rcases List.mem_cons.mp h1 with rfl | h1
          · rw [hg] at h2; exact hi (Option.some.inj h2).symm
          · exact hex ⟨n', h1, h2⟩

end Fold

variable {α : Type} {s si u : Shape} {w : Nat}

/-- The set scatter at an element on which some update lands, all such updates carrying the same value. -/
theorem scatter_set_hit (d : ScatterDims s si u) (x : s.Idx → α) (idx : IVec si w) (upd : u.Idx → α) (i' : s.Idx)
    (j₀ : u.Idx) (h₀ : d.resultIdx? j₀ idx = some i')
    (hval : ∀ j : u.Idx, d.resultIdx? j idx = some i' → upd j = upd j₀) :
    Host.scatter d (fun _ b => b) x idx upd i' = upd j₀ := by
  classical
  unfold Host.scatter
  rw [foldl_overwrite_apply (fun n => d.resultIdx? (u.rowMajor.symm n) idx) (fun n => upd (u.rowMajor.symm n)) _
    (fun r n i h => by simp only [h]) (fun r n h => by simp only [h]) i' (upd j₀) _ x
    (fun n _ h => hval _ h)]
  rw [if_pos ⟨u.rowMajor j₀, List.mem_finRange _, by rw [Equiv.symm_apply_apply]; exact h₀⟩]

/-- The set scatter at an element no update lands on: the operand's element. -/
theorem scatter_set_miss (d : ScatterDims s si u) (x : s.Idx → α) (idx : IVec si w) (upd : u.Idx → α) (i' : s.Idx)
    (hmiss : ∀ j : u.Idx, d.resultIdx? j idx ≠ some i') :
    Host.scatter d (fun _ b => b) x idx upd i' = x i' := by
  classical
  unfold Host.scatter
  rw [foldl_overwrite_apply (fun n => d.resultIdx? (u.rowMajor.symm n) idx) (fun n => upd (u.rowMajor.symm n)) _
    (fun r n i h => by simp only [h]) (fun r n h => by simp only [h]) i' (x i') _ x
    (fun n _ h => absurd h (hmiss _))]
  rw [if_neg]
  rintro ⟨n, _, h⟩
  exact hmiss _ h

end Cert.LibSetScatter
-- ==== Proof.LibSetScatterLast.lean ====
/-
  A "set" scatter read at one element when several updates land on it: the LAST one wins.

  The host's scatter whose body returns the update (x.at[idx].set(v)) is the left fold, over the updates in row-major
  order, of "overwrite the element this update lands on". Read at one element i of the result: if j₀ lands on i and no
  update after j₀ in row-major order lands on i, the element is update j₀'s value — whatever the earlier updates wrote
  there. For a scatter of whole rows selected by a column of index words (x.at[rows].set(v) on a matrix) this says: row n
  of the result is the update's row r₀, where r₀ is the LAST row whose index word reads n; and which r₀ that is depends on
  the index words alone, not on the width of the rows or on their contents.
-/
import proofs.«126996_j68831145885827_2_alg».proof.Proof.LibSetScatter
import Idealize.ShloMosaic.Lib.ValueIdx

namespace Cert.LibSetScatterLast

open Idealize.ShloMosaic Idealize.ShloMosaic.ValueIdx

section Fold

variable {ι κ α : Type} [DecidableEq κ]

/-- A fold of overwrites read at one key, over a list that splits at a step landing on the key after which no step
    lands on it: the value that step carries. -/
theorem foldl_overwrite_last (g : ι → Option κ) (v : ι → α) (stp : (κ → α) → ι → (κ → α))
    (hs : ∀ r n i, g n = some i → stp r n = fun i' => if i' = i then v n else r i')
    (hn : ∀ r n, g n = none → stp r n = r) (i' : κ) (L1 L2 : List ι) (n₀ : ι) (h₀ : g n₀ = some i')
    (hlater : ∀ n ∈ L2, g n ≠ some i') (x : κ → α) :
    (L1 ++ n₀ :: L2).foldl stp x i' = v n₀ := by
  classical
  rw [List.foldl_append, List.foldl_cons]
  rw [Cert.LibSetScatter.foldl_overwrite_apply g v stp hs hn i' (v n₀) L2 _ (fun n hn' h => absurd h (hlater n hn'))]
  rw [if_neg (by rintro ⟨n, h1, h2⟩; exact hlater n h1 h2)]
  rw [hs _ n₀ i' h₀]
  exact if_pos rfl

end Fold

/-- The list 0, 1, …, N − 1 split at k: everything after k is larger. -/
theorem finRange_split (N : ℕ) (k : Fin N) :
    ∃ L1 L2 : List (Fin N), List.finRange N = L1 ++ k :: L2 ∧ ∀ n ∈ L2, k.val < n.val := by
  have hk : k.val < (List.finRange N).length := by rw [List.length_finRange]; exact k.isLt
  refine ⟨(List.finRange N).take k.val, (List.finRange N).drop (k.val + 1), ?_, ?_⟩
  · have h1 : (List.finRange N).drop k.val = (List.finRange N)[k.val] :: (List.finRange N).drop (k.val + 1) :=
      List.drop_eq_getElem_cons hk
    have h2 : (List.finRange N)[k.val] = k := by
      rw [List.getElem_finRange]; exact Fin.ext rfl
    exact (List.take_append_drop k.val (List.finRange N)).symm.trans (by rw [h1, h2])
  · intro n hn
    obtain ⟨i, hi, rfl⟩ := List.mem_iff_getElem.mp hn
    rw [List.getElem_drop, List.getElem_finRange]
    show k.val < k.val + 1 + i
    omega

variable {α : Type} {s si u : Shape} {w : Nat}

/-- The set scatter at an element on which update j₀ lands and no later update (in row-major order) does: update j₀'s
    value. -/
theorem scatter_set_last (d : ScatterDims s si u) (x : s.Idx → α) (idx : IVec si w) (upd : u.Idx → α) (i' : s.Idx)
    (j₀ : u.Idx) (h₀ : d.resultIdx? j₀ idx = some i')
    (hlast : ∀ j : u.Idx, d.resultIdx? j idx = some i' → (u.rowMajor j).val ≤ (u.rowMajor j₀).val) :
    Host.scatter d (fun _ b => b) x idx upd i' = upd j₀ := by
  classical
  unfold Host.scatter
  obtain ⟨L1, L2, hL, hL2⟩ := finRange_split u.numel (u.rowMajor j₀)
  rw [hL, foldl_overwrite_last (fun n => d.resultIdx? (u.rowMajor.symm n) idx) (fun n => upd (u.rowMajor.symm n)) _
    (fun r n i h => by simp only [h]) (fun r n h => by simp only [h]) i' L1 L2 (u.rowMajor j₀)
    (by rw [Equiv.symm_apply_apply]; exact h₀)
    (fun n hn h => by
      have := hlast (u.rowMajor.symm n) h
      rw [Equiv.apply_symm_apply] at this
      have := hL2 n hn
      omega)]
  rw [Equiv.symm_apply_apply]

end Cert.LibSetScatterLast
-- ==== Proof.LibRowGatherScatter.lean ====
/-
  ROW GATHER AND ROW SCATTER READ AT AN INDEX: what the host operations stablehlo.gather and stablehlo.scatter do at one
  element when they move whole rows of a rank-2 array (or single elements of a rank-1 array) selected by a column of
  start indices [R, 1].

  rowOf is the row a start index selects under gather's rule: the index word read as a signed integer and clamped into
  [0, N - 1] (rowOf_eq_of_toInt: it is n when the word reads as n < N). gather_rows_apply: a gather of an [N, C] operand
  with offset_dims [1], collapsed_slice_dims [0], start_index_map [0], index_vector_dim 1, slice_sizes [1, C] at (r, c)
  is the operand at (rowOf r, c). gather_elems_apply: the same for an [N] operand with no offset axis and slice_sizes [1].
  scatter_rows_resultIdx?_eq_some_iff: under scatter's dimension numbers update_window_dims [1], inserted_window_dims [0],
  scatter_dims_to_operand_dims [0], index_vector_dim 1, update element (r, c) lands on operand element (n, c') exactly
  when the index word of row r, read signed and NOT clamped, is n, and the column is the same.
-/
import Mathlib
import Idealize.ShloMosaic.PureOps.Contract
import Idealize.ShloMosaic.PureOps.ShapeOps
import Idealize.ShloMosaic.PureOps.Dims
import Idealize.ShloMosaic.Lib.ValueIdx

namespace Idealize.ShloMosaic.RowGatherScatter

open Idealize.ShloMosaic Idealize.ShloMosaic.ValueIdx

/-- The row a start index selects: the index word of row r read signed, clamped into [0, N - 1]. -/
def rowOf {N R w : ℕ} (hN : 0 < N) (idx : IVec ⟨2, ![R, 1]⟩ w) (r : Fin R) : Fin N :=
  ⟨min (idx (ix2 r 0)).toInt.toNat (N - 1), by omega⟩

/-- An index word that reads as n, a row of the operand, selects row n: the clamp does nothing. -/
theorem rowOf_eq_of_toInt {N R w : ℕ} (hN : 0 < N) (idx : IVec ⟨2, ![R, 1]⟩ w) (r : Fin R) (n : Fin N)
    (h : (idx (ix2 r 0)).toInt = (n.val : ℤ)) : rowOf hN idx r = n := by
  refine Fin.ext ?_
  show min (idx (ix2 r 0)).toInt.toNat (N - 1) = n.val
  rw [h, Int.toNat_natCast]
  have := n.isLt
  omega

/-! ## The row gather -/

/-- The row gather's dimension numbers, literal, over any proof of their conditions. -/
abbrev rowsDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at the literal dimension numbers. -/
theorem gather_rows_lit {α : Type} {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c) = x (ix2 (rowOf hN idx r) c) := by
  unfold Host.gather
  congr 1
  funext a
  refine Fin.ext ?_
  match a with
  | ⟨0, _⟩ =>
    -- the row axis: collapsed, so no offset; its start is the clamped index
    show (rowsDims N C R wf).start (ix2 r c) idx 0 + (rowsDims N C R wf).batchCoord (ix2 r c) 0
      + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    -- the column axis: not in the start index map, so start 0; its offset is the result's column
    show (rowsDims N C R wf).start (ix2 r c) idx 1 + (rowsDims N C R wf).batchCoord (ix2 r c) 1
      + (rowsDims N C R wf).offCoord (ix2 r c) 1 = c.val
    rw [GatherDims.batchCoord_eq_zero _ _ _ List.not_mem_nil]
    unfold GatherDims.start
    rw [dif_neg (show (1 : Fin 2) ∉ (rowsDims N C R wf).startIndexMap by show (1 : Fin 2) ∉ [(0 : Fin 2)]; decide)]
    unfold GatherDims.offCoord
    rw [dif_pos (show (1 : Fin 2) ∈ (rowsDims N C R wf).sKept from
      (GatherDims.mem_sKept _ _).mpr ⟨by show (1 : Fin 2) ∉ [(0 : Fin 2)]; decide, List.not_mem_nil⟩)]
    simp only [Nat.zero_add]
    rfl

/-- A ROW GATHER READ AT (r, c): result row r is the operand's row at the clamped start index, the column kept. -/
theorem gather_rows_apply {α : Type} {N C R w : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c) = x (ix2 (rowOf hN idx r) c) := by
  obtain ⟨od, cd, ob, sb, sm, iv, ss, wf⟩ := d
  simp only at h1 h2 h3 h4 h5 h6 h7
  subst h1 h2 h3 h4 h5 h6 h7
  exact gather_rows_lit hN wf x idx r c

/-! ## The element gather -/

/-- The element gather's dimension numbers, literal, over any proof of their conditions. -/
abbrev elemsDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The element gather at the literal dimension numbers. -/
theorem gather_elems_lit {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (elemsDims N R wf) x idx (ix1 r) = x (ix1 (rowOf hN idx r)) := by
  unfold Host.gather
  congr 1
  funext a
  obtain rfl : a = 0 := Subsingleton.elim _ _
  refine Fin.ext ?_
  show (elemsDims N R wf).start (ix1 r) idx 0 + (elemsDims N R wf).batchCoord (ix1 r) 0
    + (elemsDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N R wf).startIndexMap from List.mem_singleton.mpr rfl)]
  have hsi : (elemsDims N R wf).siIdx (ix1 r) ⟨List.idxOf (0 : Fin 1) (elemsDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- AN ELEMENT GATHER READ AT r: result element r is the operand's element at the clamped start index. -/
theorem gather_elems_apply {α : Type} {N R w : ℕ} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (r : Fin R) :
    Host.gather d x idx (ix1 r) = x (ix1 (rowOf hN idx r)) := by
  obtain ⟨od, cd, ob, sb, sm, iv, ss, wf⟩ := d
  simp only at h1 h2 h3 h4 h5 h6 h7
  subst h1 h2 h3 h4 h5 h6 h7
  exact gather_elems_lit hN wf x idx r

/-! ## The row scatter -/

/-- The row scatter's dimension numbers, literal, over any proof of their conditions. -/
abbrev scatDims (N C R : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatLit
variable {N C R w : ℕ} (wf : ScatterDims.WF ⟨2, ![N, C]⟩ ⟨2, ![R, 1]⟩ ⟨2, ![R, C]⟩ [1] [0] [0] 1)
  (idx : IVec ⟨2, ![R, 1]⟩ w) (r : Fin R) (c : Fin C)

/-- On the row axis the window starts at the index word of row r, read signed. -/
theorem scat_start0 : (scatDims N C R wf).start (ix2 r c) idx 0 = (idx (ix2 r 0)).toInt := by
  unfold ScatterDims.start
  rw [dif_pos (show (0 : Fin 2) ∈ (scatDims N C R wf).scatterDimsToOperandDims from List.mem_singleton.mpr rfl)]
  have hsi : (scatDims N C R wf).siIdx (ix2 r c) ⟨List.idxOf (0 : Fin 2) (scatDims N C R wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis, which the map does not name, the window starts at 0. -/
theorem scat_start1 : (scatDims N C R wf).start (ix2 r c) idx 1 = 0 := by
  unfold ScatterDims.start
  rw [dif_neg (show (1 : Fin 2) ∉ (scatDims N C R wf).scatterDimsToOperandDims by show (1 : Fin 2) ∉ [(0 : Fin 2)]; decide)]

/-- The row axis is inserted: window coordinate 0. -/
theorem scat_window0 : (scatDims N C R wf).window (ix2 r c) 0 = 0 := by
  unfold ScatterDims.window
  rw [dif_neg (show (0 : Fin 2) ∉ (scatDims N C R wf).sKept by
    show (0 : Fin 2) ∉ (List.finRange 2).filter (fun a => decide (a ∉ [(0 : Fin 2)])); decide)]

/-- The column axis carries the update's column. -/
theorem scat_window1 : (scatDims N C R wf).window (ix2 r c) 1 = c.val := by
  unfold ScatterDims.window
  rw [dif_pos (show (1 : Fin 2) ∈ (scatDims N C R wf).sKept by
    show (1 : Fin 2) ∈ (List.finRange 2).filter (fun a => decide (a ∉ [(0 : Fin 2)])); decide)]
  rfl

end ScatLit

/-- The row scatter's target at the literal dimension numbers. -/
theorem scatter_rows_lit {N C R w : ℕ} (wf : ScatterDims.WF ⟨2, ![N, C]⟩ ⟨2, ![R, 1]⟩ ⟨2, ![R, C]⟩ [1] [0] [0] 1)
    (idx : IVec ⟨2, ![R, 1]⟩ w) (r : Fin R) (c : Fin C) (n : Fin N) (c' : Fin C) :
    (scatDims N C R wf).resultIdx? (ix2 r c) idx = some (ix2 n c') ↔ (idx (ix2 r 0)).toInt = (n.val : ℤ) ∧ c = c' := by
  have hs0 := scat_start0 wf idx r c
  have hs1 := scat_start1 wf idx r c
  have hw0 := scat_window0 wf r c
  have hw1 := scat_window1 wf r c
  unfold ScatterDims.resultIdx?
  split
  · rename_i h
    rw [Option.some.injEq]
    constructor
    · intro he
      have e0 := congrArg Fin.val (congrFun he 0)
      have e1 := congrArg Fin.val (congrFun he 1)
      have b0 := (h 0).1
      have b1 := (h 1).1
      simp only [hs0, hs1, hw0, hw1] at e0 e1 b0 b1
      change ((idx (ix2 r 0)).toInt + ((0 : ℕ) : ℤ)).toNat = n.val at e0
      change ((0 : ℤ) + (c.val : ℤ)).toNat = c'.val at e1
      refine ⟨by omega, Fin.ext (by omega)⟩
    · rintro ⟨hn, rfl⟩
      funext a
      refine Fin.ext ?_
      match a with
      | ⟨0, _⟩ =>
        show ((scatDims N C R wf).start (ix2 r c) idx 0 + ((scatDims N C R wf).window (ix2 r c) 0 : ℤ)).toNat = n.val
        rw [hs0, hw0, hn]; omega
      | ⟨1, _⟩ =>
        show ((scatDims N C R wf).start (ix2 r c) idx 1 + ((scatDims N C R wf).window (ix2 r c) 1 : ℤ)).toNat = c.val
        rw [hs1, hw1]; omega
  · rename_i h
    constructor
    · intro he; cases he
    · rintro ⟨hn, rfl⟩
      exfalso
      apply h
      intro a
      match a with
      | ⟨0, _⟩ =>
        show 0 ≤ (scatDims N C R wf).start (ix2 r c) idx 0 + ((scatDims N C R wf).window (ix2 r c) 0 : ℤ) ∧
          (scatDims N C R wf).start (ix2 r c) idx 0 + ((scatDims N C R wf).window (ix2 r c) 0 : ℤ) < (N : ℤ)
        rw [hs0, hw0, hn]
        have := n.isLt
        omega
      | ⟨1, _⟩ =>
        show 0 ≤ (scatDims N C R wf).start (ix2 r c) idx 1 + ((scatDims N C R wf).window (ix2 r c) 1 : ℤ) ∧
          (scatDims N C R wf).start (ix2 r c) idx 1 + ((scatDims N C R wf).window (ix2 r c) 1 : ℤ) < (C : ℤ)
        rw [hs1, hw1]
        have := c.isLt
        omega

/-- A ROW SCATTER'S TARGET: update element (r, c) lands on operand element (n, c') exactly when the index word of row r,
    read signed and not clamped, is n, and the column is the same. -/
theorem scatter_rows_resultIdx?_eq_some_iff {N C R w : ℕ} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (r : Fin R) (c : Fin C) (n : Fin N) (c' : Fin C) :
    d.resultIdx? (ix2 r c) idx = some (ix2 n c') ↔ (idx (ix2 r 0)).toInt = (n.val : ℤ) ∧ c = c' := by
  obtain ⟨uw, iw, sd, iv, wf⟩ := d
  simp only at h1 h2 h3 h4
  subst h1 h2 h3 h4
  exact scatter_rows_lit wf idx r c n c'

end Idealize.ShloMosaic.RowGatherScatter
-- ==== Proof.LibSetScatterRows.lean ====
/-
  A scatter of whole rows, "set" form, read at one element.

  A matrix of R update rows is written into an N-row matrix at the rows a column of R index words names
  (x.at[rows].set(v)). Read at (n, c): if some index word reads n, the element is the update's (r₀, c) for the LAST row r₀
  whose word reads n; if none does, it is the operand's own (n, c). The last such row is a property of the index words
  alone: two scatters by the same words, of rows of different widths, copy from the same update row.
-/
import proofs.«126996_j68831145885827_2_alg».proof.Proof.LibSetScatter
import proofs.«126996_j68831145885827_2_alg».proof.Proof.LibSetScatterLast
import proofs.«126996_j68831145885827_2_alg».proof.Proof.LibRowGatherScatter

namespace Cert.LibSetScatterRows

open Idealize.ShloMosaic Idealize.ShloMosaic.ValueIdx Idealize.ShloMosaic.RowGatherScatter

variable {α : Type} {N C R w : ℕ}

/-- Among the rows whose index word reads n, if there is one there is a last one. -/
theorem exists_last_row (idx : IVec ⟨2, ![R, 1]⟩ w) (n : Fin N)
    (h : ∃ r : Fin R, (idx (ix2 r 0)).toInt = (n.val : ℤ)) :
    ∃ r₀ : Fin R, (idx (ix2 r₀ 0)).toInt = (n.val : ℤ) ∧ ∀ r : Fin R, (idx (ix2 r 0)).toInt = (n.val : ℤ) → r ≤ r₀ := by
  classical
  obtain ⟨r₁, h₁⟩ := h
  obtain ⟨r₀, hr₀, hmax⟩ := (Finset.univ.filter fun r : Fin R => (idx (ix2 r 0)).toInt = (n.val : ℤ)).exists_max_image id
    ⟨r₁, Finset.mem_filter.mpr ⟨Finset.mem_univ _, h₁⟩⟩
  exact ⟨r₀, (Finset.mem_filter.mp hr₀).2, fun r hr => hmax r (Finset.mem_filter.mpr ⟨Finset.mem_univ _, hr⟩)⟩

/-- Row n of the result, where r₀ is the last row whose index word reads n: the update's row r₀. -/
theorem scatter_set_rows_hit (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) (x : (⟨2, ![N, C]⟩ : Shape).Idx → α) (idx : IVec ⟨2, ![R, 1]⟩ w)
    (upd : (⟨2, ![R, C]⟩ : Shape).Idx → α) (n : Fin N) (c : Fin C) (r₀ : Fin R)
    (h₀ : (idx (ix2 r₀ 0)).toInt = (n.val : ℤ))
    (hlast : ∀ r : Fin R, (idx (ix2 r 0)).toInt = (n.val : ℤ) → r ≤ r₀) :
    Host.scatter d (fun _ b => b) x idx upd (ix2 n c) = upd (ix2 r₀ c) := by
  refine Cert.LibSetScatterLast.scatter_set_last d x idx upd (ix2 n c) (ix2 r₀ c)
    ((scatter_rows_resultIdx?_eq_some_iff d h1 h2 h3 h4 idx r₀ c n c).mpr ⟨h₀, rfl⟩) (fun j hj => ?_)
  obtain ⟨r, c', rfl⟩ : ∃ (r : Fin R) (c' : Fin C), j = ix2 r c' := ⟨j 0, j 1, eq_ix2 j⟩
  obtain ⟨hr, rfl⟩ := (scatter_rows_resultIdx?_eq_some_iff d h1 h2 h3 h4 idx r c' n c).mp hj
  have hle : r.val ≤ r₀.val := hlast r hr
  rw [Shape.rowMajor_val_two, Shape.rowMajor_val_two]
  show r.val * C + c'.val ≤ r₀.val * C + c'.val
  exact Nat.add_le_add_right (Nat.mul_le_mul_right C hle) _

/-- Row n of the result when no index word reads n: the operand's row. -/
theorem scatter_set_rows_miss (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) (x : (⟨2, ![N, C]⟩ : Shape).Idx → α) (idx : IVec ⟨2, ![R, 1]⟩ w)
    (upd : (⟨2, ![R, C]⟩ : Shape).Idx → α) (n : Fin N) (c : Fin C)
    (hmiss : ∀ r : Fin R, (idx (ix2 r 0)).toInt ≠ (n.val : ℤ)) :
    Host.scatter d (fun _ b => b) x idx upd (ix2 n c) = x (ix2 n c) := by
  refine Cert.LibSetScatter.scatter_set_miss d x idx upd (ix2 n c) (fun j hj => ?_)
  obtain ⟨r, c', rfl⟩ : ∃ (r : Fin R) (c' : Fin C), j = ix2 r c' := ⟨j 0, j 1, eq_ix2 j⟩
  exact hmiss r ((scatter_rows_resultIdx?_eq_some_iff d h1 h2 h3 h4 idx r c' n c).mp hj).1

end Cert.LibSetScatterRows
-- ==== Proof.UnpoolProduct.lean ====
/-
  Unpooling commutes with the matrix product.

  The kernel multiplies the coarse rows by W and then writes the 64-wide product rows at the fine nodes the index words
  name, into zeros; the reference writes the 128-wide rows of x at the same fine nodes, into zeros, and then multiplies
  every fine row by W. Both scatters pick, for a fine node n, the LAST coarse row r₀ whose index word reads n — a
  property of the index words alone — so at (n, c) both sides are ∑ k, x(r₀, k) · W(k, c); and for a fine node no index
  word names, the kernel's entry is the zero it scattered into while the reference's is ∑ k, 0 · W(k, c) = 0.
  Nothing here needs the entries to be finite: 0 · y = 0 for every extended real y.
-/
import proofs.«126996_j68831145885827_2_alg».proof.Proof.Gen.KernelIdeal
import proofs.«126996_j68831145885827_2_alg».proof.Proof.Gen.ReferenceIdeal
import proofs.«126996_j68831145885827_2_alg».proof.Proof.Spec
import proofs.«126996_j68831145885827_2_alg».proof.Proof.KerChain
import proofs.«126996_j68831145885827_2_alg».proof.Proof.RefChain
import proofs.«126996_j68831145885827_2_alg».proof.Proof.LibSetScatterRows
import Idealize.ShloMosaic.Lib.StackMember
import Idealize.ShloMosaic.Lib.IdealHost
import Idealize.ShloMosaic.PureOps.Ideal.Laws

noncomputable section

namespace Cert.UnpoolProduct

open Idealize.ShloMosaic Idealize.ShloMosaic.ValueIdx

/-- The two programs wrap the index words into a column in the same way. -/
theorem wrap_eq (u : IVec ⟨1, ![163968]⟩ 32) :
    Cert.KernelIdeal.Chain.wrapCol163968 u = Cert.ReferenceIdeal.Chain.wrapCol163968 u := rfl

/-- The reference's product record is the plain m×k by k×n one. -/
theorem dot_plain : Cert.ReferenceIdeal.dot_S655488x128_S128x64_S655488x64_1_0_0_1_n_n = DotDims.plain 655488 128 64 := rfl

/-- A zero splat read at an index is the extended real 0. -/
theorem zeros_apply (t : Shape) (h : (⟨0, ![]⟩ : Shape).BroadcastsInDim t ![]) (j : t.Idx) :
    broadcastInDim t ![] h (constant (F := Ideal) ⟨0, ![]⟩ .f32 0x00000000#32) j = (0 : EReal) := by
  rw [broadcastInDim_apply _ h _ j ix0 (fun a => a.elim0)]
  show Ideal.ofBits .f32 0x00000000#32 = 0
  exact Ideal.ofBits_zero_f32

/-- The kernel's node features (product rows unpooled) are the reference's (unpooled rows times W). -/
theorem unpool_product (x : FVec Ideal ⟨2, ![163968, 128]⟩ .f32) (W : FVec Ideal ⟨2, ![128, 64]⟩ .f32)
    (u : IVec ⟨1, ![163968]⟩ 32) :
    Cert.KernelIdeal.Chain.unpool (F := Ideal) u (Cert.Spec.rowsTimes x W)
      = Cert.ReferenceIdeal.Chain.featOf (F := Ideal) x W u := by
  funext j
  obtain ⟨n, c, rfl⟩ : ∃ (n : Fin 655488) (c : Fin 64), j = ix2 n c := ⟨j 0, j 1, eq_ix2 j⟩
  unfold Cert.ReferenceIdeal.Chain.featOf
  rw [dot_plain, StackMember.dotGeneral_plain_apply]
  unfold Cert.KernelIdeal.Chain.unpool Cert.ReferenceIdeal.Chain.unpool
  rw [wrap_eq]
  generalize Cert.ReferenceIdeal.Chain.wrapCol163968 u = idx
  by_cases hex : ∃ r : Fin 163968, (idx (ix2 r 0)).toInt = (n.val : ℤ)
  · obtain ⟨r₀, h₀, hlast⟩ := Cert.LibSetScatterRows.exists_last_row idx n hex
    rw [Cert.LibSetScatterRows.scatter_set_rows_hit _ rfl rfl rfl rfl _ idx _ n c r₀ h₀ hlast, Cert.Spec.rowsTimes_apply]
    refine Finset.sum_congr rfl fun k _ => ?_
    rw [Cert.LibSetScatterRows.scatter_set_rows_hit _ rfl rfl rfl rfl _ idx _ n k r₀ h₀ hlast]
  · have hmiss : ∀ r : Fin 163968, (idx (ix2 r 0)).toInt ≠ (n.val : ℤ) := fun r h => hex ⟨r, h⟩
    rw [Cert.LibSetScatterRows.scatter_set_rows_miss _ rfl rfl rfl rfl _ idx _ n c hmiss, zeros_apply]
    refine (Finset.sum_eq_zero fun k _ => ?_).symm
    rw [Cert.LibSetScatterRows.scatter_set_rows_miss _ rfl rfl rfl rfl _ idx _ n k hmiss, zeros_apply]
    exact zero_mul _

end Cert.UnpoolProduct

end
-- ==== Proof.LibLayoutAt.lean ====
/-
  LAYOUT OPERATIONS OF SMALL RANK READ AT AN INDEX GIVEN BY ITS COORDINATES.

  A scalar broadcast to any shape reads the scalar. A length-n vector made an n × 1 column (by broadcast along axis 0, or
  by a reshape) reads, at (p, ·), the vector at p; an n × 1 column spread over k columns (by broadcast_in_dim or by the vector
  unit's broadcast) reads, at (p, c), the column at (p, 0). A length-k vector made a 1 × k row reads, at (·, c), the vector at
  c; a 1 × k row spread over n rows reads, at (p, c), the row at (0, c). Row r of a 2 × n array, sliced out as 1 × n and
  reshaped to length n, reads at e the array at (r, e). Two vectors laid end to end read, at a position in the first piece,
  the first vector there, and at a position past it, the second vector at the position less the first's length. The iota
  along the one axis of a vector reads, at i, the word i.
-/
import Idealize.ShloMosaic.Lib.Pipeline.Value
import Idealize.ShloMosaic.Lib.ValueIdx
import Idealize.ShloMosaic.Lib.IdealHost

noncomputable section

namespace Cert.LibLayoutAt

open Idealize.ShloMosaic Idealize.ShloMosaic.ValueIdx

variable {α : Type}

/-- A scalar broadcast to any shape reads the scalar. -/
theorem bcast_scalar_apply (t : Shape) (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A length-n vector broadcast along axis 0 of [n, 1] reads, at (p, u), the vector at p. -/
theorem bcast_a_a1_apply {n : ℕ} (v : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h v (ix2 p u) = v (ix1 p) :=
  broadcastInDim_apply _ h v (ix2 p u) (ix1 p) (fun b => by
    match b with
    | ⟨0, _⟩ =>
      show p.val = if n = 1 then 0 else p.val
      split
      · have := p.isLt; omega
      · rfl)

/-- An [n, 1] column broadcast along axes 0, 1 of [n, k] reads, at (p, c), the column at (p, 0). -/
theorem bcast_a1_ab_apply {n k : ℕ} (w : (⟨2, ![n, 1]⟩ : Shape).Idx → α)
    (h : (⟨2, ![n, 1]⟩ : Shape).BroadcastsInDim ⟨2, ![n, k]⟩ ![0, 1]) (p : Fin n) (c : Fin k) :
    broadcastInDim ⟨2, ![n, k]⟩ ![0, 1] h w (ix2 p c) = w (ix2 p (0 : Fin 1)) :=
  broadcastInDim_apply _ h w (ix2 p c) (ix2 p (0 : Fin 1)) (fun b => by
    match b with
    | ⟨0, _⟩ =>
      show p.val = if n = 1 then 0 else p.val
      split
      · have := p.isLt; omega
      · rfl
    | ⟨1, _⟩ => rfl)

/-- A length-k vector broadcast along axis 1 of [1, k] reads, at (u, c), the vector at c. -/
theorem bcast_a_1a_apply {k : ℕ} (x : (⟨1, ![k]⟩ : Shape).Idx → α)
    (h : (⟨1, ![k]⟩ : Shape).BroadcastsInDim ⟨2, ![1, k]⟩ ![1]) (u : Fin 1) (c : Fin k) :
    broadcastInDim ⟨2, ![1, k]⟩ ![1] h x (ix2 u c) = x (ix1 c) :=
  broadcastInDim_apply _ h x (ix2 u c) (ix1 c) (fun b => by
    match b with
    | ⟨0, _⟩ =>
      show c.val = if k = 1 then 0 else c.val
      split
      · have := c.isLt; omega
      · rfl)

/-- A [1, k] row broadcast along axes 0, 1 of [n, k] reads, at (p, c), the row at (0, c). -/
theorem bcast_1b_ab_apply {n k : ℕ} (w : (⟨2, ![1, k]⟩ : Shape).Idx → α)
    (h : (⟨2, ![1, k]⟩ : Shape).BroadcastsInDim ⟨2, ![n, k]⟩ ![0, 1]) (p : Fin n) (c : Fin k) :
    broadcastInDim ⟨2, ![n, k]⟩ ![0, 1] h w (ix2 p c) = w (ix2 (0 : Fin 1) c) :=
  broadcastInDim_apply _ h w (ix2 p c) (ix2 (0 : Fin 1) c) (fun b => by
    match b with
    | ⟨0, _⟩ => rfl
    | ⟨1, _⟩ =>
      show c.val = if k = 1 then 0 else c.val
      split
      · have := c.isLt; omega
      · rfl)

/-- A length-n vector reshaped to [n, 1] reads, at (i, u), the vector at i. -/
theorem shapeCast_a_a1_apply {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [n, 1] column broadcast by the vector unit to [n, k] reads, at (p, c), the column at (p, 0). -/
theorem broadcastTo_a1_ab_apply {n k : ℕ} (v : (⟨2, ![n, 1]⟩ : Shape).Idx → α)
    (h : (⟨2, ![n, 1]⟩ : Shape).Broadcasts ⟨2, ![n, k]⟩) (p : Fin n) (c : Fin k) :
    broadcastTo ⟨2, ![n, k]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- ROW r OF A 2 × n ARRAY, sliced out as 1 × n and reshaped to length n, reads at e the array at (r, e). -/
theorem row_of_pair_apply {n : ℕ} (r : Fin 2) (x : (⟨2, ![2, n]⟩ : Shape).Idx → α)
    (hs : (⟨2, ![2, n]⟩ : Shape).Slices ![r.val, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![r.val, 0] x hs) hc (ix1 e) = x (ix2 r e) := by
  rw [shapeCast_apply (extractStridedSlice ⟨2, ![1, n]⟩ ![r.val, 0] x hs) hc (ix1 e) (ix2 (0 : Fin 1) e) (by
    rw [Shape.rowMajor_val_two, Shape.rowMajor_val_one]
    show 0 * n + e.val = e.val
    omega)]
  exact extractStridedSlice_apply _ x hs (ix2 (0 : Fin 1) e) (ix2 r e) (fun a => by
    match a with
    | ⟨0, _⟩ => show r.val = r.val + 0; omega
    | ⟨1, _⟩ => show e.val = 0 + e.val; omega)

/-- Two vectors laid end to end, read in the FIRST piece. -/
theorem concat_vec_left {A B C : ℕ} (x₁ : (⟨1, ![A]⟩ : Shape).Idx → α) (x₂ : (⟨1, ![B]⟩ : Shape).Idx → α)
    (h : Shape.Concatenates [⟨1, ![A]⟩, ⟨1, ![B]⟩] ⟨1, ![C]⟩ (0 : Fin 1)) (e' : Fin C) (e : Fin A) (he : e'.val = e.val) :
    concatenate ⟨1, ![C]⟩ (0 : Fin 1) [⟨⟨1, ![A]⟩, x₁⟩, ⟨⟨1, ![B]⟩, x₂⟩] h (ix1 e') = x₁ (ix1 e) :=
  concatenate_pair_apply_left (0 : Fin 1) x₁ x₂ h (ix1 e') rfl (ix1 e) (fun b => by
    match b with
    | ⟨0, _⟩ => exact he.symm)

/-- Two vectors laid end to end, read in the SECOND piece. -/
theorem concat_vec_right {A B C : ℕ} (x₁ : (⟨1, ![A]⟩ : Shape).Idx → α) (x₂ : (⟨1, ![B]⟩ : Shape).Idx → α)
    (h : Shape.Concatenates [⟨1, ![A]⟩, ⟨1, ![B]⟩] ⟨1, ![C]⟩ (0 : Fin 1)) (e' : Fin C) (i : Fin B) (he : e'.val = A + i.val) :
    concatenate ⟨1, ![C]⟩ (0 : Fin 1) [⟨⟨1, ![A]⟩, x₁⟩, ⟨⟨1, ![B]⟩, x₂⟩] h (ix1 e') = x₂ (ix1 i) :=
  concatenate_pair_apply_right (0 : Fin 1) x₁ x₂ h (ix1 e') rfl rfl (ix1 i)
    (fun b hb => by
      match b with
      | ⟨0, _⟩ => exact absurd rfl hb)
    (by show i.val + A = e'.val; omega)

/-- The iota along the one axis of a vector reads, at i, the word i. -/
theorem iota_vec_apply {n : ℕ} (w : ℕ) (i : Fin n) :
    iotaInDim (⟨1, ![n]⟩ : Shape) w 0 (ix1 i) = BitVec.ofNat w i.val := rfl

end Cert.LibLayoutAt

end
-- ==== Proof.Bridge.lean ====
/-
  The two results are one function of the arguments.

  After the unpooling law (the kernel's unpooled product rows are the reference's node features h) both programs apply
  the same chain over the edge list to h, and what is left is the last stage, entry by entry. With
  v = (agg(p, c) + h(p, c) · normSq(p)) + b(c) on both sides — the kernel reads the squared normaliser off a column and
  the bias off a row, the reference off their spreads over the whole matrix — the kernel's entry is v where v > 0 and
  exp(min(v, 0)) − 1 elsewhere, the reference's is v where v > 0 and 1 · (exp(v') − 1) elsewhere, v' being v with its
  positive values replaced by 0. Where v is not positive, min(v, 0) = v = v': the two agree on every extended real.
-/
import proofs.«126996_j68831145885827_2_alg».proof.Proof.Spec
import proofs.«126996_j68831145885827_2_alg».proof.Proof.KerChain
import proofs.«126996_j68831145885827_2_alg».proof.Proof.RefChain
import proofs.«126996_j68831145885827_2_alg».proof.Proof.KerOut
import proofs.«126996_j68831145885827_2_alg».proof.Proof.UnpoolProduct
import proofs.«126996_j68831145885827_2_alg».proof.Proof.LibLayoutAt
import Idealize.ShloMosaic.Lib.ValueLayout
import Idealize.ShloMosaic.Lib.IdealHost

set_option maxHeartbeats 400000

noncomputable section

namespace Cert.Bridge

open Idealize.ShloMosaic Idealize.ShloMosaic.ValueIdx

/-- The two programs' chains over the edge list are the same operations. -/
theorem agg_eq (h : FVec Ideal ⟨2, ![655488, 64]⟩ .f32) (e : IVec ⟨2, ![2, 3932160]⟩ 32) :
    Cert.KernelIdeal.Chain.aggOf (F := Ideal) h e = Cert.ReferenceIdeal.Chain.aggOf (F := Ideal) h e := rfl
theorem normSq_eq (e : IVec ⟨2, ![2, 3932160]⟩ 32) :
    Cert.KernelIdeal.Chain.normSqCol (F := Ideal) e = Cert.ReferenceIdeal.Chain.normSqCol (F := Ideal) e := rfl

/-- The last stage on one entry, in the reference's spelling. -/
def elu1 (v : Ideal .f32) : Ideal .f32 :=
  Scalar.select (FloatOps.cmpf .ogt v (Ideal.ofBits .f32 0x00000000#32)) v
    (FloatOps.mulf (Ideal.ofBits .f32 0x3F800000#32)
      (FloatOps.hostUnary .expm1 (Scalar.select (FloatOps.cmpf .ogt v (Ideal.ofBits .f32 0x00000000#32))
        (Ideal.ofBits .f32 0x00000000#32) v)))

/-- The kernel's spelling of the last stage is the reference's, on every extended real. -/
theorem act_eq_elu1 (v : Ideal .f32) : Cert.Spec.act v = elu1 v := by
  unfold Cert.Spec.act elu1
  show Scalar.select (Ideal.cmp .ogt v (Ideal.ofBits .f32 0x00000000#32)) v
      (Ideal.exp (min v (Ideal.ofBits .f32 0x00000000#32)) - Ideal.ofBits .f32 0x3F800000#32)
    = Scalar.select (Ideal.cmp .ogt v (Ideal.ofBits .f32 0x00000000#32)) v
      (Ideal.ofBits .f32 0x3F800000#32 * (Ideal.exp (Scalar.select (Ideal.cmp .ogt v (Ideal.ofBits .f32 0x00000000#32))
        (Ideal.ofBits .f32 0x00000000#32) v) - 1))
  rw [Ideal.ofBits_zero_f32, Ideal.ofBits_one_f32]
  unfold Ideal.cmp Scalar.select
  by_cases h : (0 : EReal) < v
  · simp [h]
  · have hv : v ≤ (0 : EReal) := not_lt.mp h
    simp [h, min_eq_left hv]

/-- What the last stage is applied to, read at (p, c): the column of squared normalisers is read at row p, the bias at
    column c. -/
theorem preAct_apply (A h : FVec Ideal ⟨2, ![655488, 64]⟩ .f32) (NS : FVec Ideal ⟨2, ![655488, 1]⟩ .f32)
    (b : FVec Ideal ⟨1, ![64]⟩ .f32)
    (h1 : (⟨2, ![655488, 1]⟩ : Shape).BroadcastsInDim ⟨2, ![655488, 64]⟩ ![0, 1])
    (h2 : (⟨2, ![1, 64]⟩ : Shape).BroadcastsInDim ⟨2, ![655488, 64]⟩ ![0, 1])
    (h3 : (⟨1, ![64]⟩ : Shape).BroadcastsInDim ⟨2, ![1, 64]⟩ ![1]) (p : Fin 655488) (c : Fin 64) :
    addf (addf A (mulf h (broadcastInDim ⟨2, ![655488, 64]⟩ ![0, 1] h1 NS)))
        (broadcastInDim ⟨2, ![655488, 64]⟩ ![0, 1] h2 (broadcastInDim ⟨2, ![1, 64]⟩ ![1] h3 b)) (ix2 p c)
      = A (ix2 p c) + h (ix2 p c) * NS (ix2 p (0 : Fin 1)) + b (ix1 c) := by
  rw [addf_apply, addf_apply, mulf_apply, Cert.LibLayoutAt.bcast_a1_ab_apply, Cert.LibLayoutAt.bcast_1b_ab_apply,
    Cert.LibLayoutAt.bcast_a_1a_apply]

/-- The reference's last stage read at an index: its one-entry form of the entry there. -/
theorem eluOf_apply (V : FVec Ideal ⟨2, ![655488, 64]⟩ .f32) (j : (⟨2, ![655488, 64]⟩ : Shape).Idx) :
    Cert.ReferenceIdeal.Chain.eluOf (F := Ideal) V j = elu1 (V j) := by
  unfold Cert.ReferenceIdeal.Chain.eluOf elu1
  rw [select_apply, cmpf_apply, mulf_apply]
  unfold Host.expm1
  rw [select_apply, cmpf_apply]
  rw [Cert.LibLayoutAt.bcast_scalar_apply, Cert.LibLayoutAt.bcast_scalar_apply, Cert.LibLayoutAt.bcast_scalar_apply]
  rfl

/-- THE BRIDGE: the kernel's result function is the reference's. -/
theorem out_eq (x : FVec Ideal ⟨2, ![163968, 128]⟩ .f32) (W : FVec Ideal ⟨2, ![128, 64]⟩ .f32) (b : FVec Ideal ⟨1, ![64]⟩ .f32)
    (e : IVec ⟨2, ![2, 3932160]⟩ 32) (u : IVec ⟨1, ![163968]⟩ 32) :
    Cert.KernelIdeal.KRun.kerOut x W b e u = Cert.ReferenceIdeal.Chain.refOut (F := Ideal) x W b e u := by
  unfold Cert.KernelIdeal.KRun.kerOut Cert.ReferenceIdeal.Chain.refOut
  rw [Cert.UnpoolProduct.unpool_product x W u, agg_eq, normSq_eq]
  generalize Cert.ReferenceIdeal.Chain.featOf (F := Ideal) x W u = h
  funext j
  obtain ⟨p, c, rfl⟩ : ∃ (p : Fin 655488) (c : Fin 64), j = ix2 p c := ⟨j 0, j 1, eq_ix2 j⟩
  rw [Cert.Spec.finish_apply, act_eq_elu1, eluOf_apply]
  refine congrArg elu1 ?_
  unfold Cert.ReferenceIdeal.Chain.preAct Cert.KernelIdeal.Chain.biasRow
  rw [preAct_apply, shapeCast_a_1a_apply]

end Cert.Bridge

end
-- ==== Proof.lean ====
/-
  The certificate: a graph-convolution layer on an unpooled mesh, the kernel against its plain reference, over the
  extended reals.

  Both programs take coarse node features x (163968 × 128), a weight matrix W (128 × 64), a bias b (64), an edge list
  (2 × 3932160 index words) and, per coarse node, the index word of the fine node it becomes (163968 words; 655488 fine
  nodes). The reference writes x's rows at the named fine nodes into zeros, multiplies by W, aggregates over the edges
  with symmetric normalisers 1/sqrt(1 + in-degree), adds each node's own features times its squared normaliser and the
  bias, and applies the exponential linear unit. The kernel multiplies x by W first (its first launch, row block by row
  block), writes the 64-wide product rows at the same fine nodes, runs the same chain over the edges on the host, and
  does the self term, the bias and the last stage in its second launch, v where v > 0 and exp(min(v, 0)) − 1 elsewhere.

  The two agree on every input, finite or not, and whatever the index words are (repeated or out of range): a row
  scatter keeps, for each fine node, the LAST coarse row whose word names it, which the words alone decide, so
  "multiply then scatter" and "scatter then multiply" pick the same row (and an unnamed fine node gets 0 on one side and
  a sum of 0 · W(k, c) on the other); the chains over the edges are the same operations of the same node features; and
  where v is not positive, min(v, 0) = v, so the two spellings of the last stage are one function.

  The three frames: the two kernels' are the runs of their launches and host operations with the arguments read back as
  launched; the reference's is its run with the result dropped. The idealization rewrote nothing, so there is nothing to
  preserve beyond the program's own text.
-/
import proofs.«126996_j68831145885827_2_alg».proof.Defs
import proofs.«126996_j68831145885827_2_alg».proof.Proof.Gen.Kernel
import proofs.«126996_j68831145885827_2_alg».proof.Proof.Gen.Kernel.Frame
import proofs.«126996_j68831145885827_2_alg».proof.Proof.Gen.KernelIdeal
import proofs.«126996_j68831145885827_2_alg».proof.Proof.Gen.KernelIdeal.Frame
import proofs.«126996_j68831145885827_2_alg».proof.Proof.Gen.ReferenceIdeal
import proofs.«126996_j68831145885827_2_alg».proof.Proof.Gen.Pre_finite_inputs
import proofs.«126996_j68831145885827_2_alg».proof.Proof.KernelRun
import proofs.«126996_j68831145885827_2_alg».proof.Proof.RefRun
import proofs.«126996_j68831145885827_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- At the extended reals the kernel's result array ends at its function of the arguments and the reference's at its own,
    from arguments that agree: one function. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact (Cert.Bridge.out_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
